-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x1000 : Shape := ⟨2, ![16384, 1000]⟩
abbrev S16384 : Shape := ⟨1, ![16384]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x1000 : S_.BroadcastsInDim S16384x1000 (![] : Fin 0 → Fin S16384x1000.rank)
  reducesTo_S16384x1000_S_d0_1 : S16384x1000.ReducesTo [0, 1] S_

variable [Facts]

def fn {F : FTy → Type} [FloatOps F] (main_arg0 : FVec F S16384x256 .f32) (main_arg1 : FVec F S16384x1000 .f32) (main_arg2 : IVec S16384 32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x1000 .f32 := Host.absf main_arg1
  let main_cst_0 : FVec F S_ .f32 := constant S_ .f32 0x7F800000#32
  let main_v5 : FVec F S16384x1000 .f32 := broadcastInDim S16384x1000 ![] bcast_S_S16384x1000 main_cst_0
  let main_v6 : IVec S16384x1000 1 := cmpf .olt main_v4 main_v5
  let main_c_1 : IVec S_ 1 := constantI S_ 1 1#1
  let main_v7 : IVec S_ 1 := (fun x v => Host.reduce IntOp.andi x v reducesTo_S16384x1000_S_d0_1 h_S_) main_v6 main_c_1
  let main_v8 : IVec S_ 1 := andi main_v3 main_v7
  main_v8
-- ==== Kernel.lean ====
abbrev S16384x256 : Shape := ⟨2, ![16384, 256]⟩
abbrev S16384x1000 : Shape := ⟨2, ![16384, 1000]⟩
abbrev S16384 : Shape := ⟨1, ![16384]⟩
abbrev S_ : Shape := ⟨0, ![]⟩
abbrev S16384x1 : Shape := ⟨2, ![16384, 1]⟩
abbrev S16384x2 : Shape := ⟨2, ![16384, 2]⟩
abbrev S1x16384 : Shape := ⟨2, ![1, 16384]⟩
abbrev S512x256 : Shape := ⟨2, ![512, 256]⟩
abbrev S512x1 : Shape := ⟨2, ![512, 1]⟩
abbrev S512 : Shape := ⟨1, ![512]⟩
abbrev S1024x256 : Shape := ⟨2, ![1024, 256]⟩
abbrev S1x1024 : Shape := ⟨2, ![1, 1024]⟩
abbrev S512x1024 : Shape := ⟨2, ![512, 1024]⟩

abbrev nBuf : Space → Nat
  | .hbm => 46
  | .vmem => 10
  | .smem => 0
  | _ => 0

abbrev bufTy : (tb : Table) → Fin (tcTables nBuf tb) → BufTy
  | .hbm, ⟨0, _⟩ => ⟨S16384x256, .f32⟩
  | .hbm, ⟨1, _⟩ => ⟨S16384x1000, .f32⟩
  | .hbm, ⟨2, _⟩ => ⟨S16384, .i32⟩
  | .hbm, ⟨3, _⟩ => ⟨S16384x256, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x256, .f32⟩
  | .hbm, ⟨12, _⟩ => ⟨S16384x256, .f32⟩
  | .hbm, ⟨13, _⟩ => ⟨S16384, .i32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S16384x1, .i32⟩
  | .hbm, ⟨29, _⟩ => ⟨S16384x1, .i32⟩
  | .hbm, ⟨30, _⟩ => ⟨S16384x2, .i32⟩
  | .hbm, ⟨31, _⟩ => ⟨S16384, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S_, .f32⟩
  | .hbm, ⟨36, _⟩ => ⟨S16384, .f32⟩
  | .hbm, ⟨37, _⟩ => ⟨S16384, .f32⟩
  | .hbm, ⟨38, _⟩ => ⟨S16384x1, .f32⟩
  | .hbm, ⟨39, _⟩ => ⟨S16384x1, .i32⟩
  | .hbm, ⟨40, _⟩ => ⟨S1x16384, .i32⟩
  | .hbm, ⟨41, _⟩ => ⟨S16384, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S16384x256, .f32⟩
  | .local _ .vmem, ⟨3, _⟩ => ⟨S512x1, .i32⟩
  | .local _ .vmem, ⟨4, _⟩ => ⟨S512x1, .i32⟩
  | .local _ .vmem, ⟨5, _⟩ => ⟨S1x16384, .i32⟩
  | .local _ .vmem, ⟨6, _⟩ => ⟨S512x1, .f32⟩
  | .local _ .vmem, ⟨7, _⟩ => ⟨S512x1, .f32⟩
  | .local _ .vmem, ⟨8, _⟩ => ⟨S512, .f32⟩
  | .local _ .vmem, ⟨9, _⟩ => ⟨S512, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c1024_i32 : BitVec 32 := 1024#32
  let v7 : BitVec 32 := Scalar.muli c0_i32 c1024_i32
  v7
def k0_off1 (c0_i32 : BitVec 32) : Fin 2 → Nat :=
  let c1024_i32 : BitVec 32 := 1024#32
  let v7 : BitVec 32 := Scalar.muli c0_i32 c1024_i32
  let v8 : BitVec 32 := v7
  let v9 : Index := Scalar.indexCast v8
  let c0_5 : Index := 0#32
  ![v9.toNat, 0]
def k0_off2 (c0_i32 : BitVec 32) : Fin 2 → Nat :=
  let c0_6 : Index := 0#32
  let c1024_i32 : BitVec 32 := 1024#32
  let v7 : BitVec 32 := Scalar.muli c0_i32 c1024_i32
  let v8 : BitVec 32 := v7
  let v12 : Index := Scalar.indexCast v8
  ![0, v12.toNat]
def k0_mult2 : BitVec 32 :=
  let c1_i32 : BitVec 32 := 1#32
  let c1024_i32_10 : BitVec 32 := 1024#32
  let v29 : BitVec 32 := Scalar.muli c1_i32 c1024_i32_10
  v29
def k0_mult3 : BitVec 32 :=
  let c2_i32 : BitVec 32 := 2#32
  let c1024_i32_16 : BitVec 32 := 1024#32
  let v51 : BitVec 32 := Scalar.muli c2_i32 c1024_i32_16
  v51
def k0_mult4 : BitVec 32 :=
  let c3_i32 : BitVec 32 := 3#32
  let c1024_i32_22 : BitVec 32 := 1024#32
  let v73 : BitVec 32 := Scalar.muli c3_i32 c1024_i32_22
  v73
def k0_mult5 : BitVec 32 :=
  let c4_i32 : BitVec 32 := 4#32
  let c1024_i32_28 : BitVec 32 := 1024#32
  let v95 : BitVec 32 := Scalar.muli c4_i32 c1024_i32_28
  v95
def k0_mult6 : BitVec 32 :=
  let c5_i32 : BitVec 32 := 5#32
  let c1024_i32_34 : BitVec 32 := 1024#32
  let v117 : BitVec 32 := Scalar.muli c5_i32 c1024_i32_34
  v117
def k0_mult7 : BitVec 32 :=
  let c6_i32 : BitVec 32 := 6#32
  let c1024_i32_40 : BitVec 32 := 1024#32
  let v139 : BitVec 32 := Scalar.muli c6_i32 c1024_i32_40
  v139
def k0_mult8 : BitVec 32 :=
  let c7_i32 : BitVec 32 := 7#32
  let c1024_i32_46 : BitVec 32 := 1024#32
  let v161 : BitVec 32 := Scalar.muli c7_i32 c1024_i32_46
  v161
def k0_mult9 : BitVec 32 :=
  let c8_i32 : BitVec 32 := 8#32
  let c1024_i32_52 : BitVec 32 := 1024#32
  let v183 : BitVec 32 := Scalar.muli c8_i32 c1024_i32_52
  v183
def k0_mult10 : BitVec 32 :=
  let c9_i32 : BitVec 32 := 9#32
  let c1024_i32_58 : BitVec 32 := 1024#32
  let v205 : BitVec 32 := Scalar.muli c9_i32 c1024_i32_58
  v205
def k0_mult11 : BitVec 32 :=
  let c10_i32 : BitVec 32 := 10#32
  let c1024_i32_64 : BitVec 32 := 1024#32
  let v227 : BitVec 32 := Scalar.muli c10_i32 c1024_i32_64
  v227
def k0_mult12 : BitVec 32 :=
  let c11_i32 : BitVec 32 := 11#32
  let c1024_i32_70 : BitVec 32 := 1024#32
  let v249 : BitVec 32 := Scalar.muli c11_i32 c1024_i32_70
  v249
def k0_mult13 : BitVec 32 :=
  let c12_i32 : BitVec 32 := 12#32
  let c1024_i32_76 : BitVec 32 := 1024#32
  let v271 : BitVec 32 := Scalar.muli c12_i32 c1024_i32_76
  v271
def k0_mult14 : BitVec 32 :=
  let c13_i32 : BitVec 32 := 13#32
  let c1024_i32_82 : BitVec 32 := 1024#32
  let v293 : BitVec 32 := Scalar.muli c13_i32 c1024_i32_82
  v293
def k0_mult15 : BitVec 32 :=
  let c14_i32 : BitVec 32 := 14#32
  let c1024_i32_88 : BitVec 32 := 1024#32
  let v315 : BitVec 32 := Scalar.muli c14_i32 c1024_i32_88
  v315
def k0_mult16 : BitVec 32 :=
  let c15_i32 : BitVec 32 := 15#32
  let c1024_i32_94 : BitVec 32 := 1024#32
  let v337 : BitVec 32 := Scalar.muli c15_i32 c1024_i32_94
  v337
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x16384 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  bcast_S_S16384 : S_.BroadcastsInDim S16384 (![] : Fin 0 → Fin S16384.rank)
  concatenates_S16384x1_S16384x1_S16384x2_d1 : Shape.Concatenates [S16384x1, S16384x1] S16384x2 1
  shapeCasts_S16384_S16384x1 : S16384.ShapeCasts S16384x1
  shapeCasts_S16384_S1x16384 : S16384.ShapeCasts S1x16384
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S1024x256 : 0 < S1024x256.numel
  shapeCasts_S1024x256_S1024x256 : S1024x256.ShapeCasts S1024x256
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  reduces_S512x1024_S512 : S512x1024.Reduces [1] S512
  shapeCasts_S512_S512x1 : S512.ShapeCasts S512x1
  shapeCasts_S512x1_S512 : S512x1.ShapeCasts S512
  inb_S512_S512_0 : ∀ a, (![0] : Fin 1 → Nat) a + S512.size a ≤ S512.size a
  h_S512 : 0 < S512.numel
  reducesTo_S16384_S_d0 : S16384.ReducesTo [0] S_
  gather_S16384x1000_S16384x2_S16384_n_01_n_n_01_1_11_wf : GatherDims.WF S16384x1000 S16384x2 S16384 [] [0, 1] [] [0, 1] [] 1 ![1, 1]
  dot_S512x256_S1024x256_S512x1024_1_1_0_0_n_n_wf : DotDims.WF S512x256 S1024x256 S512x1024 [1] [1] [0] [0] [] []
  hrank0 : 0 < grid0.rank
  k0_mult1_dvd : 1024 ∣ k0_mult1.toNat
  k0_off1_inb : ∀ (r : Fin 16), ∀ a, (k0_off1 (BitVec.ofNat 32 r.val)) a + S1024x256.size a ≤ S16384x256.size a
  k0_off2_inb : ∀ (r : Fin 16), ∀ a, (k0_off2 (BitVec.ofNat 32 r.val)) a + S1x1024.size a ≤ S1x16384.size a
  k0_mult2_dvd : 1024 ∣ k0_mult2.toNat
  k0_mult3_dvd : 1024 ∣ k0_mult3.toNat
  k0_mult4_dvd : 1024 ∣ k0_mult4.toNat
  k0_mult5_dvd : 1024 ∣ k0_mult5.toNat
  k0_mult6_dvd : 1024 ∣ k0_mult6.toNat
  k0_mult7_dvd : 1024 ∣ k0_mult7.toNat
  k0_mult8_dvd : 1024 ∣ k0_mult8.toNat
  k0_mult9_dvd : 1024 ∣ k0_mult9.toNat
  k0_mult10_dvd : 1024 ∣ k0_mult10.toNat
  k0_mult11_dvd : 1024 ∣ k0_mult11.toNat
  k0_mult12_dvd : 1024 ∣ k0_mult12.toNat
  k0_mult13_dvd : 1024 ∣ k0_mult13.toNat
  k0_mult14_dvd : 1024 ∣ k0_mult14.toNat
  k0_mult15_dvd : 1024 ∣ k0_mult15.toNat
  k0_mult16_dvd : 1024 ∣ k0_mult16.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S16384x256.size a
  hwx0_0 : ∀ i : grid0.Coords, EltTy.bits .f32 = 32 ∨ (Rect.block (s := S16384x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x256.size a ≤ S16384x256.size a
  hwx0_1 : ∀ i : grid0.Coords, EltTy.bits .f32 = 32 ∨ (Rect.block (s := S16384x256) S16384x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .i32 = 32 ∨ (Rect.block (s := S16384x1) S512x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16384.size a ≤ S1x16384.size a
  hwx0_3 : ∀ i : grid0.Coords, EltTy.bits .i32 = 32 ∨ (Rect.block (s := S1x16384) S1x16384.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S16384x1.size a
  hwx0_4 : ∀ i : grid0.Coords, EltTy.bits .f32 = 32 ∨ (Rect.block (s := S16384x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S16384.size a
  hwx0_5 : ∀ i : grid0.Coords, EltTy.bits .f32 = 32 ∨ (Rect.block (s := S16384) S512.size (cc0_transform_5 i) (hinb0_5 i)).WholeWords (EltTy.packing .f32)

variable [Facts₀]

def gather_S16384x1000_S16384x2_S16384_n_01_n_n_01_1_11 : GatherDims S16384x1000 S16384x2 S16384 where
  offsetDims := []
  collapsedSliceDims := [0, 1]
  operandBatchingDims := []
  startIndicesBatchingDims := []
  startIndexMap := [0, 1]
  indexVectorDim := 1
  sliceSizes := ![1, 1]
  wf := gather_S16384x1000_S16384x2_S16384_n_01_n_n_01_1_11_wf
def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf

abbrev win0_0 : Pipeline.Window sig grid0 :=
  Pipeline.Window.ofSpec (Memref.whole main_v4) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S16384x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x16384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v27) S512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x256 : Shape := ⟨2, ![16384, 256]⟩
abbrev S16384x1000 : Shape := ⟨2, ![16384, 1000]⟩
abbrev S16384 : Shape := ⟨1, ![16384]⟩
abbrev S_ : Shape := ⟨0, ![]⟩
abbrev S16384x1 : Shape := ⟨2, ![16384, 1]⟩
abbrev S256x16384 : Shape := ⟨2, ![256, 16384]⟩
abbrev S16384x16384 : Shape := ⟨2, ![16384, 16384]⟩
abbrev S1x16384 : Shape := ⟨2, ![1, 16384]⟩
abbrev S16384x2 : Shape := ⟨2, ![16384, 2]⟩

abbrev nBuf : Space → Nat
  | .hbm => 60
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x1000, .f32⟩
  | .hbm, ⟨2, _⟩ => ⟨S16384, .i32⟩
  | .hbm, ⟨3, _⟩ => ⟨S16384x256, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x256, .f32⟩
  | .hbm, ⟨12, _⟩ => ⟨S16384x256, .f32⟩
  | .hbm, ⟨13, _⟩ => ⟨S256x16384, .f32⟩
  | .hbm, ⟨14, _⟩ => ⟨S16384x16384, .f32⟩
  | .hbm, ⟨15, _⟩ => ⟨S16384x1, .i32⟩
  | .hbm, ⟨16, _⟩ => ⟨S1x16384, .i32⟩
  | .hbm, ⟨17, _⟩ => ⟨S16384x16384, .i32⟩
  | .hbm, ⟨18, _⟩ => ⟨S16384x16384, .i32⟩
  | .hbm, ⟨19, _⟩ => ⟨S16384x16384, .i1⟩
  | .hbm, ⟨20, _⟩ => ⟨S16384, .i32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S16384x1, .i32⟩
  | .hbm, ⟨37, _⟩ => ⟨S16384x2, .i32⟩
  | .hbm, ⟨38, _⟩ => ⟨S16384, .f32⟩
  | .hbm, ⟨39, _⟩ => ⟨S_, .f32⟩
  | .hbm, ⟨40, _⟩ => ⟨S16384, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x16384, .f32⟩
  | .hbm, ⟨47, _⟩ => ⟨S16384x16384, .i1⟩
  | .hbm, ⟨48, _⟩ => ⟨S16384x16384, .i1⟩
  | .hbm, ⟨49, _⟩ => ⟨S16384x16384, .f32⟩
  | .hbm, ⟨50, _⟩ => ⟨S16384x16384, .f32⟩
  | .hbm, ⟨51, _⟩ => ⟨S_, .f32⟩
  | .hbm, ⟨52, _⟩ => ⟨S16384x16384, .f32⟩
  | .hbm, ⟨53, _⟩ => ⟨S16384x16384, .f32⟩
  | .hbm, ⟨54, _⟩ => ⟨S_, .f32⟩
  | .hbm, ⟨55, _⟩ => ⟨S16384, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x256_0_1 : S16384x1.BroadcastsInDim S16384x256 (![0, 1] : Fin 2 → Fin S16384x256.rank)
  transposes_S16384x256_S256x16384_1_0 : S16384x256.Transposes [1, 0] S256x16384
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384 : S_.BroadcastsInDim S16384 (![] : Fin 0 → Fin S16384.rank)
  concatenates_S16384x1_S16384x1_S16384x2_d1 : Shape.Concatenates [S16384x1, S16384x1] S16384x2 1
  bcast_S_S16384x16384 : S_.BroadcastsInDim S16384x16384 (![] : Fin 0 → Fin S16384x16384.rank)
  reducesTo_S16384x16384_S16384_d1 : S16384x16384.ReducesTo [1] S16384
  reducesTo_S16384_S_d0 : S16384.ReducesTo [0] S_
  dot_S16384x256_S256x16384_S16384x16384_1_0_0_1_n_n_wf : DotDims.WF S16384x256 S256x16384 S16384x16384 [1] [0] [0] [1] [] []
  gather_S16384x1000_S16384x2_S16384_n_01_n_n_01_1_11_wf : GatherDims.WF S16384x1000 S16384x2 S16384 [] [0, 1] [] [0, 1] [] 1 ![1, 1]

variable [Facts₀]

def dot_S16384x256_S256x16384_S16384x16384_1_0_0_1_n_n : DotDims S16384x256 S256x16384 S16384x16384 where
  lhsContracting := [1]
  rhsContracting := [0]
  lhsNonContracting := [0]
  rhsNonContracting := [1]
  lhsBatch := []
  rhsBatch := []
  wf := dot_S16384x256_S256x16384_S16384x16384_1_0_0_1_n_n_wf
def gather_S16384x1000_S16384x2_S16384_n_01_n_n_01_1_11 : GatherDims S16384x1000 S16384x2 S16384 where
  offsetDims := []
  collapsedSliceDims := [0, 1]
  operandBatchingDims := []
  startIndicesBatchingDims := []
  startIndexMap := [0, 1]
  indexVectorDim := 1
  sliceSizes := ![1, 1]
  wf := gather_S16384x1000_S16384x2_S16384_n_01_n_n_01_1_11_wf

class Facts : Prop extends Facts₀ where

variable [Facts]
-- ==== Proof.WordPoint.lean ====
/-
  One grid point of the row-tiled kernel. The body reads its row tile of the normalised embeddings (512 rows), the
  tile's labels and thresholds, and — sixteen times — a block of 1024 rows of the whole embedding matrix with the
  labels of those rows; from each block it forms the 512 x 1024 tile of inner products, keeps an entry only where the
  two labels differ and the product exceeds the row's threshold (replacing it by the product less the threshold, else
  by zero), takes the row maxima, and folds them into a running maximum that starts at zero. The 512 running maxima
  are stored as the point's block of the result. Here: the body's Hoare triple on whole staging buffers, what the
  result buffer holds afterwards as one pure term of the five input buffers' contents, the pipeline's proof data
  (every input buffer keeps its block; the embedding matrix is handed to two windows, each holding half of the
  right to read it), and the body obligation at every grid point.
-/
import proofs.«163947_j46145128629049_2_alg».proof.Proof.Gen.Kernel.Launch
import proofs.«163947_j46145128629049_2_alg».proof.Proof.Gen.Kernel.Skeleton
import proofs.«163947_j46145128629049_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's rectangles -/

/-- The whole row tile, the whole label column, the whole threshold column, the whole result block. -/
abbrev rRow : Rect S512x256 := Rect.unit (s := S512x256) ![0, 0] S512x256.size inb_S512x256_S512x256_0_0
abbrev rCol1 : Rect S512x1 := Rect.unit (s := S512x1) ![0, 0] S512x1.size inb_S512x1_S512x1_0_0
abbrev rOut : Rect S512 := Rect.unit (s := S512) ![0] S512.size inb_S512_S512_0
/-- Block `k` of 1024 rows of the embedding matrix, and the labels of those rows. -/
abbrev rBlk (k : Fin 16) : Rect S16384x256 := Rect.unit (s := S16384x256) (k0_off1 (BitVec.ofNat 32 k.val)) S1024x256.size (k0_off1_inb k)
abbrev rLab (k : Fin 16) : Rect S1x16384 := Rect.unit (s := S1x16384) (k0_off2 (BitVec.ofNat 32 k.val)) S1x1024.size (k0_off2_inb k)

/-! ## What the body stores -/

/-- The running maximum after all sixteen blocks, as the body computes it from its five input buffers: row tile `x0`,
    embedding matrix `x1`, the tile's labels `x2`, all labels `x3`, the tile's thresholds `x4`. The printed body is cut
    into eight parts; this is their composition. -/
def runMax (x0 : Vec F S512x256 .f32) (x1 : Vec F S16384x256 .f32) (x2 : Vec F S512x1 .i32) (x3 : Vec F S1x16384 .i32)
    (x4 : Vec F S512x1 .f32) : FVec F S512x1 .f32 :=
  let v0 := View.ld x0 rRow
  let v2 := View.ld x2 rCol1
  let v4 := View.ld x4 rCol1
  let b (k : Fin 16) := View.ld x1 (rBlk k)
  let l (k : Fin 16) := View.ld x3 (rLab k)
  let v1 := k0_pay2 v0
  let v3 := k0_pay3 v2
  let v5 := k0_pay4 v4
  let v28 := k0_pay5 v0 v2 v4 (b 0) (l 0)
  let v37 := k0_pay6 v0 (b 1)
  let v38 := k0_pay7 (F := F) v2
  let v39 := k0_pay8 (F := F) (l 1)
  let v72 := k0_pay9 v1 v3 v5 v28 v37 v38 v39 (b 2) (l 2)
  let v81 := k0_pay10 v1 (b 3)
  let v84 := k0_pay11 (F := F) v3 (l 3)
  let v85 := k0_pay12 v5
  let v116 := k0_pay13 v1 v3 v5 v72 v81 v84 v85 (b 4) (l 4)
  let v125 := k0_pay14 v1 (b 5)
  let v131 := k0_pay15 v1 v3 v5 (b 5) (l 5)
  let v160 := k0_pay16 v1 v3 v5 v116 v125 v131 (b 6) (l 6)
  let v175 := k0_pay18 v1 v3 v5 (b 7) (l 7)
  let v177 := k0_pay19 v1 v5 (b 7)
  let v204 := k0_pay20 v1 v3 v5 v160 v175 v177 (b 8) (l 8)
  let v219 := k0_pay22 v1 v3 v5 (b 9) (l 9)
  let v221 := k0_pay23 v1 v5 (b 9)
  let v222 := k0_pay24 (F := F)
  let v248 := k0_pay25 v1 v3 v5 v204 v219 v221 v222 (b 10) (l 10)
  let v267 := k0_pay26 v1 v3 v5 (b 11) (l 11)
  let v292 := k0_pay27 v1 v3 v5 v248 v267 (b 12) (l 12)
  let v313 := k0_pay28 v1 v3 v5 (b 13) (l 13)
  k0_pay29 v1 v3 v5 v292 v313 (b 14) (l 14) (b 15) (l 15)

/-- The result buffer after the body: its one store, of the running maxima as a vector of 512. -/
def tileOut (x0 : Vec F S512x256 .f32) (x1 : Vec F S16384x256 .f32) (x2 : Vec F S512x1 .i32) (x3 : Vec F S1x16384 .i32)
    (x4 : Vec F S512x1 .f32) : Vec F S512 .f32 :=
  View.canon [⟨rOut, k0_pay1 (runMax x0 x1 x2 x3 x4)⟩]

/-- The one store fills the result block. -/
theorem cover_out (p0 : Vec F S512 .f32) (y : S512.Idx) :
    ∃ pc ∈ ([⟨rOut, p0⟩] : List (View.Piece (Elt F) S512 .f32)), y ∈ pc.1.set :=
  View.cover_of_tiled [⟨rOut, p0⟩] S512.size (by rfl) y

/-! ## The body's triple -/

set_option maxHeartbeats 4000000 in
/-- The body on whole staging buffers: the five inputs at contents `x0 … x4` and the result buffer at anything run to
    the inputs as they were and the result buffer at `tileOut` of them. -/
theorem sound_kernel (c : Dev nD) (E : Set ℕ) (i : grid0.Coords)
    (arg1 : Memref sig .tc .vmem S512x256 .f32) (harg1 : arg1.IsWhole) (arg2 : Memref sig .tc .vmem S16384x256 .f32) (harg2 : arg2.IsWhole)
    (arg3 : Memref sig .tc .vmem S512x1 .i32) (harg3 : arg3.IsWhole) (arg4 : Memref sig .tc .vmem S1x16384 .i32) (harg4 : arg4.IsWhole)
    (arg5 : Memref sig .tc .vmem S512x1 .f32) (harg5 : arg5.IsWhole) (arg6 : Memref sig .tc .vmem S512 .f32) (harg6 : arg6.IsWhole)
    (x0 : Vec F S512x256 .f32) (x1 : Vec F S16384x256 .f32) (x2 : Vec F S512x1 .i32) (x3 : Vec F S1x16384 .i32) (x4 : Vec F S512x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (tileOut x0 x1 x2 x3 x4)) -∗ K ⟨⟩))
      ⊢ wp frame (wpE (defs₀ (F := F)) Variants.none c none) E (cc0__loss_kernel i arg1 harg1 arg2 harg2 arg3 harg3 arg4 harg4 arg5 harg5 arg6 harg6) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

end Cert.Kernel.Point

end
-- ==== Proof.WordData.lean ====
/-
  The pipeline's proof data for the row-tiled kernel. When the region is entered the buffers hold the launch contents
  after the host operations before the call (the normalised embeddings, the thresholds, the labels as a column and as
  a row). Window `w`'s block at grid point `t` is read off its array as the region finds it: rows 512·t … 512·t+511 of
  the embeddings, of the label column and of the threshold column; the whole embedding matrix and the whole label row
  at every point. After the body each input buffer still holds its block and the result buffer holds the tile's
  running maxima. The embedding matrix is one array behind two windows: each window holds one half of the right to
  read it. Then the body obligation: at every point the body, started on the blocks, leaves exactly that.
-/
import proofs.«163947_j46145128629049_2_alg».proof.Proof.WordPoint
import Idealize.ShloMosaic.Lib.Pipeline.FrameSuffix

set_option maxRecDepth 16384

noncomputable section

namespace Cert.Kernel.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the region's entry -/

/-- The host operations before the call, in order: the row norms, then everything else. -/
abbrev before : List (List (HloOp τ sig (Elt F))) := [hostOps0, hostOps0_1]

/-- Core `c`'s buffers when the region is entered: the launch contents after the host operations before the call. -/
def W0 (c : Dev nD) : Valuation τ sig (Elt F) := StableHlo.after (before (F := F)).flatten (fun b => m (c, b))

abbrev V (c : Dev nD) (b : Ref sig .tc) : Buf (Elt F) ((c : Thread nD τ).loc b) := W0 m c b

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The proof data on core `c`: the arrays as the region finds them; after the body each input's buffer at its block and
    the result's at the tile's running maxima; the invariant is the untouched scoped rest and generator register; nothing
    owed; the embedding matrix read at half the full share by each of its two windows, every other array held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileOut (iblk m c 0 t) (iblk m c 1 t) (iblk m c 2 t) (iblk m c 3 t) (iblk m c 4 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = tileOut (iblk m c 0 t) (iblk m c 1 t) (iblk m c 2 t) (iblk m c 3 t) (iblk m c 4 t) := by dsimp only [dats]

/-- The shares: halves of the embedding matrix, everything else whole. -/
theorem share0 (c : Dev nD) : (dats m 0 c).share 0 = fullShare.left := by unfold Dat.share; rfl
theorem share1 (c : Dev nD) : (dats m 0 c).share 1 = fullShare.right := by unfold Dat.share; rfl
theorem share2 (c : Dev nD) : (dats m 0 c).share 2 = fullShare := by unfold Dat.share; rfl
theorem share3 (c : Dev nD) : (dats m 0 c).share 3 = fullShare := by unfold Dat.share; rfl
theorem share4 (c : Dev nD) : (dats m 0 c).share 4 = fullShare := by unfold Dat.share; rfl
theorem share5 (c : Dev nD) : (dats m 0 c).share 5 = fullShare := by unfold Dat.share; rfl

/-- Each input's current staging buffer holds its block at every point, fetched there or not: unfetched, the block
    index has not moved since the fetch, and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Point

end
-- ==== Proof.WordRun.lean ====
/-
  The run of the whole program around the row-tiled kernel. @main is: the host operations before the call (row norms,
  normalised embeddings, gathered thresholds, the labels as a column and as a row), the call, and the host operations
  after it (the sum of the 16384 row losses and its division by 16384). The normalised embeddings are ONE array handed
  to the kernel through two windows (a streamed row tile and the whole matrix, resident): at the region's entry its
  points-to is split in two halves, one per window, and at the exit the halves are put together again, so that the
  host operations after the call run over all unscoped buffers as usual. The result: every execution ends, every
  array of the pipeline holds what the write-backs left (an input: its entry contents) and every other unscoped buffer
  what the host operations computed — the arguments, which nothing writes, among them.
-/
import proofs.«163947_j46145128629049_2_alg».proof.Proof.WordData

set_option maxRecDepth 16384

noncomputable section

namespace Cert.Kernel.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations after the call: the sum of the result and its division by the number of rows. -/
abbrev afterOps : List (List (HloOp τ sig (Elt F))) := [hostOps1]

theorem before_sub : (before (F := F)).Forall fun ops => ops.Forall fun op => op.bufs ⊆ StableHlo.tcRefs τ sig :=
  ⟨hostOps0_sub, hostOps0_1_sub⟩

theorem before_fresh : (before (F := F)).Forall fun ops => ops.Forall fun op => op.fresh = ∅ :=
  ⟨⟨rfl, rfl, rfl, rfl, rfl⟩, ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩⟩

/-- @main is the host operations before the call, the call, and the host operations after it. -/
theorem hmain : Pipeline.HMainK (Ix := Unit) (Name := ℕ) (U := UR sig nD τ) (Lvl := ℕ) cfgs 0 defs₀ Variants.none m (main (F := F)) (V m)
    (fun _ => Pipeline.chain ((afterOps (F := F)).map StableHlo.seq)) :=
  Pipeline.hmain_around cfgs 0 defs₀ Variants.none m main (before (F := F)) (afterOps (F := F)) before_sub before_fresh
    (fun c => (main_chain c).trans rfl)

/-- Core `c`'s buffers at the region's exit: the result array at what the write-backs left, everything else as entered. -/
def Wx (c : Dev nD) : Valuation τ sig (Elt F) :=
  Function.update (W0 m c) (Proc.devRef .tc main_v27) ((dats m 0 c).arrAt 5 cfg0.N)

/-- Core `c`'s buffers at the end: after the host operations that follow the call. -/
def Wend (c : Dev nD) : Valuation τ sig (Elt F) := StableHlo.after (afterOps (F := F)).flatten (Wx m c)

abbrev Vx (c : Dev nD) (b : Ref sig .tc) : Buf (Elt F) ((c : Thread nD τ).loc b) := Wx m c b
abbrev Vend (c : Dev nD) (b : Ref sig .tc) : Buf (Elt F) ((c : Thread nD τ).loc b) := Wend m c b

/-- The distinct buffers behind the windows' arrays, one by one: the embeddings, the label column, the label row, the
    thresholds, the result. -/
theorem arrBufs_eq (c : Dev nD) (Vv : (b : Ref sig .tc) → Buf (Elt F) ((c.tc : Thread nD τ).loc b)) :
    (Pipeline.arrBufs spec0 c Vv : sProp 𝕄)
      = iprop((((c.tc : Thread nD τ).loc main_v4) ↦{fullShare} Vv main_v4) ∗ (((c.tc : Thread nD τ).loc main_v25) ↦{fullShare} Vv main_v25)
          ∗ (((c.tc : Thread nD τ).loc main_v26) ↦{fullShare} Vv main_v26) ∗ (((c.tc : Thread nD τ).loc main_v24) ↦{fullShare} Vv main_v24)
          ∗ (((c.tc : Thread nD τ).loc main_v27) ↦{fullShare} Vv main_v27)) :=
  bigSep_eq_bigSepL_of_eq [main_v4, main_v25, main_v26, main_v24, main_v27] (by decide) (by decide) _

/-- The five buffers behind the six windows' arrays, whole at the full share at contents `Vv`, are the proof data's
    arrays at the same contents: the embedding matrix's points-to split in two halves, one per window that reads it. -/
theorem arrays_of_arrBufs (c : Dev nD) (Vv : (b : Ref sig .tc) → Buf (Elt F) ((c.tc : Thread nD τ).loc b))
    (F' : (w : Fin cfg0.W) → Buf (Elt F) ((cfg0.win w).arr.view.loc (c.tc : Thread nD τ)))
    (hF : ∀ w, F' w = Vv (Pipeline.arrRef spec0 w)) :
    (Pipeline.arrBufs spec0 c Vv : sProp 𝕄) ⊢ (dats m 0 c).arrays F' := by
  have h0 : (cfg0.win 0).arr.view.set = Finset.univ := (arr_whole0 0).set_eq_univ
  have h1 : (cfg0.win 1).arr.view.set = Finset.univ := (arr_whole0 1).set_eq_univ
  have h2 : (cfg0.win 2).arr.view.set = Finset.univ := (arr_whole0 2).set_eq_univ
  have h3 : (cfg0.win 3).arr.view.set = Finset.univ := (arr_whole0 3).set_eq_univ
  have h4 : (cfg0.win 4).arr.view.set = Finset.univ := (arr_whole0 4).set_eq_univ
  have h5 : (cfg0.win 5).arr.view.set = Finset.univ := (arr_whole0 5).set_eq_univ
  rw [arrBufs_eq]
  unfold Dat.arrays
  rw [bigSep_W0]
  rw [share0, share1, share2, share3, share4, share5, hF 0, hF 1, hF 2, hF 3, hF 4, hF 5]
  simp only [h0, h1, h2, h3, h4, h5]
  iintro ⟨H4, H25, H26, H24, H27⟩
  ihave H4' := (pointsTo_share (PosShare.mem_left_op_right fullShare)).1 $$ H4
  icases H4' with ⟨HL, HR⟩
  isplitl [HL]; · iexact HL
  isplitl [HR]; · iexact HR
  isplitl [H25]; · iexact H25
  isplitl [H26]; · iexact H26
  isplitl [H24]; · iexact H24
  iexact H27

/-- and back: the two halves of the embedding matrix's points-to rejoined. -/
theorem arrBufs_of_arrays (c : Dev nD) (Vv : (b : Ref sig .tc) → Buf (Elt F) ((c.tc : Thread nD τ).loc b))
    (F' : (w : Fin cfg0.W) → Buf (Elt F) ((cfg0.win w).arr.view.loc (c.tc : Thread nD τ)))
    (hF : ∀ w, F' w = Vv (Pipeline.arrRef spec0 w)) :
    (dats m 0 c).arrays F' ⊢ (Pipeline.arrBufs spec0 c Vv : sProp 𝕄) := by
  have h0 : (cfg0.win 0).arr.view.set = Finset.univ := (arr_whole0 0).set_eq_univ
  have h1 : (cfg0.win 1).arr.view.set = Finset.univ := (arr_whole0 1).set_eq_univ
  have h2 : (cfg0.win 2).arr.view.set = Finset.univ := (arr_whole0 2).set_eq_univ
  have h3 : (cfg0.win 3).arr.view.set = Finset.univ := (arr_whole0 3).set_eq_univ
  have h4 : (cfg0.win 4).arr.view.set = Finset.univ := (arr_whole0 4).set_eq_univ
  have h5 : (cfg0.win 5).arr.view.set = Finset.univ := (arr_whole0 5).set_eq_univ
  rw [arrBufs_eq]
  unfold Dat.arrays
  rw [bigSep_W0]
  rw [share0, share1, share2, share3, share4, share5, hF 0, hF 1, hF 2, hF 3, hF 4, hF 5]
  simp only [h0, h1, h2, h3, h4, h5]
  iintro ⟨HL, HR, H25, H26, H24, H27⟩
  ihave H4 := (pointsTo_share (PosShare.mem_left_op_right fullShare)).2 $$ [HL HR]
  · isplitl [HL]; · iexact HL
    iexact HR
  isplitl [H4]; · iexact H4
  isplitl [H25]; · iexact H25
  isplitl [H26]; · iexact H26
  isplitl [H24]; · iexact H24
  iexact H27

/-- The host operations after the call touch TensorCore buffers only and allocate nothing. -/
theorem after_sub : ∀ ops ∈ (afterOps (F := F)), ∀ op ∈ ops, op.bufs ⊆ ucRefs τ sig := by
  intro ops hops op hop
  simp only [List.mem_cons, List.mem_nil_iff, or_false] at hops
  rcases hops with rfl
  exact sub_ucRefs op ((List.forall_iff_forall_mem.mp hostOps1_sub) op hop)

theorem after_fresh : ∀ ops ∈ (afterOps (F := F)), ∀ op ∈ ops, op.fresh = ∅ := by
  intro ops hops op hop
  simp only [List.mem_cons, List.mem_nil_iff, or_false] at hops
  rcases hops with rfl
  simp only [hostOps1, List.mem_cons, List.mem_nil_iff, or_false] at hop
  rcases hop with rfl | rfl | rfl | rfl <;> rfl

/-- They write none of the pipeline's arrays: each writes its own result buffer. -/
theorem after_keeps : ∀ op ∈ (afterOps (F := F)).flatten, ∀ w, Proc.devRef .tc (Pipeline.arrRef spec0 w) ∉ op.writes := by
  intro op hop
  simp only [afterOps, List.flatten_cons, List.flatten_nil, List.append_nil, hostOps1, List.mem_cons, List.mem_nil_iff, or_false] at hop
  rcases hop with rfl | rfl | rfl | rfl
  all_goals intro w; fin_cases w <;> simp only [StableHlo.nullary_writes, StableHlo.binary_writes, Finset.mem_singleton] <;> exact StableHlo.devRef_ne_of_ne (by decide)

/-- At the region's exit every array holds what the exit valuation says: the inputs as entered, the result at its
    write-backs. -/
theorem arrAt_Vx (c : Dev nD) : ∀ w, (dats m 0 c).arrAt w cfg0.N = Vx m c (Pipeline.arrRef spec0 w)
  | ⟨0, _⟩ => ((dats m 0 c).arrAt_in 0 rfl _).trans ((A_eq m c 0).trans (Function.update_of_ne (StableHlo.devRef_ne_of_ne (by decide)) _ _).symm)
  | ⟨1, _⟩ => ((dats m 0 c).arrAt_in 1 rfl _).trans ((A_eq m c 1).trans (Function.update_of_ne (StableHlo.devRef_ne_of_ne (by decide)) _ _).symm)
  | ⟨2, _⟩ => ((dats m 0 c).arrAt_in 2 rfl _).trans ((A_eq m c 2).trans (Function.update_of_ne (StableHlo.devRef_ne_of_ne (by decide)) _ _).symm)
  | ⟨3, _⟩ => ((dats m 0 c).arrAt_in 3 rfl _).trans ((A_eq m c 3).trans (Function.update_of_ne (StableHlo.devRef_ne_of_ne (by decide)) _ _).symm)
  | ⟨4, _⟩ => ((dats m 0 c).arrAt_in 4 rfl _).trans ((A_eq m c 4).trans (Function.update_of_ne (StableHlo.devRef_ne_of_ne (by decide)) _ _).symm)
  | ⟨5, _⟩ => show (dats m 0 c).arrAt 5 cfg0.N = Function.update (W0 m c) (Proc.devRef .tc main_v27) ((dats m 0 c).arrAt 5 cfg0.N) (Proc.devRef .tc main_v27) from by rw [Function.update_self]

/-- and still does after the host operations that follow. -/
theorem arrAt_Vend (c : Dev nD) (w : Fin cfg0.W) : (dats m 0 c).arrAt w cfg0.N = Vend m c (Pipeline.arrRef spec0 w) :=
  (arrAt_Vx m c w).trans (StableHlo.after_of_forall_not_mem _ _ fun op hop => after_keeps op hop w).symm

/-- Off the arrays the exit valuation is the entry valuation. -/
theorem rest_Vx (c : Dev nD) :
    (unscopedRest (Ix := Unit) (Name := ℕ) (U := UR sig nD τ) (Lvl := ℕ) spec0 c (V m c) : sProp 𝕄) = unscopedRest spec0 c (Vx m c) := by
  unfold unscopedRest
  exact bigSep_congr fun b hb => by
    rw [show Vx m c b = V m c b from Function.update_of_ne (fun e => (Finset.mem_sdiff.mp hb).2
      (Finset.mem_image.mpr ⟨5, Finset.mem_univ _, (Proc.devRef_injective _ e).symm⟩)) _ _]

/-- The arrays at the region's exit and the bypassing buffers as entered are all the unscoped buffers at the exit
    valuation, -/
theorem held_exit (c : Dev nD) :
    iprop((dats m 0 c).arrays ((dats m 0 c).arrAt · cfg0.N) ∗ unscopedRest spec0 c (V m c))
      ⊢ (StableHlo.held (c.tc : Thread nD τ) (ucRefs τ sig) (Wx m c) : sProp 𝕄) :=
  (BIClass.sep_mono (arrBufs_of_arrays m c (Vx m c) _ (arrAt_Vx m c)) (Entails.of_eq (rest_Vx m c))).trans
    (Entails.of_eq ((Pipeline.unscopedBufs_split₀ cfgs 0 winFacts₀0.arr_unscoped c (Vx m c)).symm.trans (unscopedBufs_held c (Wx m c))))

/-- and all the unscoped buffers at the final valuation are the arrays, unchanged, and the bypassing buffers there. -/
theorem held_end (c : Dev nD) :
    (StableHlo.held (c.tc : Thread nD τ) (ucRefs τ sig) (Wend m c) : sProp 𝕄)
      ⊢ iprop((dats m 0 c).arrays ((dats m 0 c).arrAt · cfg0.N) ∗ unscopedRest spec0 c (Vend m c)) :=
  (Entails.of_eq ((unscopedBufs_held c (Wend m c)).symm.trans (Pipeline.unscopedBufs_split₀ cfgs 0 winFacts₀0.arr_unscoped c (Vend m c)))).trans
    (BIClass.sep_mono (arrays_of_arrBufs m c (Vend m c) _ (arrAt_Vend m c)) .rfl)

set_option backward.isDefEq.respectTransparency.types false in
/-- The host operations after the call, run from the region's exit: the two halves of the embedding matrix are put
    together again, the operations run over all unscoped buffers, and the arrays are dealt out again as they were. -/
theorem tail_run (c : Dev nD) (Q' : PUnit → sProp 𝕄) :
    iprop((iprop((dats m 0 c).arrays ((dats m 0 c).arrAt · cfg0.N) ∗ unscopedRest spec0 c (Vend m c)) -∗ Q' ⟨⟩)
        ∗ boundary (c.tc : Thread nD τ) ∗ (dats m 0 c).arrays ((dats m 0 c).arrAt · cfg0.N) ∗ unscopedRest spec0 c (V m c))
      ⊢ wp frame (wpE (defs (F := F)) (Variants.lift Variants.none) (c.tc : Thread nD τ) none) Set.univ
          (chain ((afterOps (F := F)).map StableHlo.seq)) Q' := by
  rw [← List.append_nil ((afterOps (F := F)).map StableHlo.seq)]
  iintro ⟨HQ, Hb, Ha, HZ⟩
  ihave HU := (held_exit m c) $$ [Ha HZ]
  · isplitl [Ha]; · iexact Ha
    iexact HZ
  iapply (wp_seqs_then (fun q => (cfgs q).toPCfg (Val := Elt F)) defs₀ Variants.none c (ucRefs τ sig) [] (afterOps (F := F)) after_sub after_fresh (Wx m c)) $$ [Hb HU]
  · isplitl [Hb]; · iexact Hb
    iexact HU
  iintro Hb
  rw [chain_nil, wp_pure]
  imodintro
  iapply HQ
  icases Hb with ⟨-, H⟩
  iapply (held_end m c)
  iexact H

set_option backward.isDefEq.respectTransparency.types false in
/-- THE RUN. From any memory, every weakly fair execution of @main ends; then every array of the pipeline holds what the
    write-backs left (an input its entry contents) and every other unscoped buffer what the host operations computed —
    in particular the arguments, which nothing writes, and the mean of the result. -/
theorem run_main : θ_run defs (onTc (τ := τ) (main (F := F))) (s₀ m ρ) (Pipeline.FramePost cfgs (dats m) 0 (Vend m)) := by
  classical
  exact Pipeline.θ_run_region_pf_tail (fun q => (cfgs q).toPCfg (Val := Elt F)) (fun q => (cfgs q).toPCfg_adm) (dats m) () cellOf_inj 0
    winFacts₀0 (OwnSemFacts.none spec0) (PreFacts.none _) emb₁ defs₀ Variants.none m ρ main
    (fun _ => Pipeline.chain ((afterOps (F := F)).map StableHlo.seq)) (fun c => (body_obligation m c).loose)
    block_pos0 arr_whole0 stage_whole0 (fun _ _ => rfl)
    (G := fun _ => iprop(emp)) (u₀ := initOf (cells cfgs cellOf_inj) (launchToks cfgs cellOf_inj))
    (hu₀ := by
      iintro Hu; imodintro
      isplitl [Hu]; · iapply (show (ownU _ : sProp 𝕄) ⊢ BI.own (emb₁ (initOf (cells cfgs cellOf_inj) (launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m)
    (hsplit := fun c => arrays_of_arrBufs m c (V m c) _ (fun w => A_eq m c w))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) (pcfgs (F := F) 0).pre spec0 c (V m c))
    (Z' := fun c => unscopedRestP (Ix := Unit) (Name := ℕ) (U := UR sig nD τ) (Lvl := ℕ) (pcfgs (F := F) 0).pre spec0 c (Vend m c))
    (hX := fun c => by
      iintro ⟨HU, -, -, -, Hp, -⟩; imodintro
      isplitl [Hp]; · iexists _; iexact Hp
      iexact HU)
    (hin := fun c => (show _ ⊢ iprop(ΦA spec0 c) by
      unfold ΦA; iintro ⟨Hp, -, Hr⟩
      isplitl [Hr] <;> iassumption))
    (hout := fun c => (show (ΦA spec0 c : sProp 𝕄) ⊢ _ by
        rw [ownSems0_none]; unfold ΦA
        iintro ⟨Hr, Hp⟩
        isplitl [Hp]; · iexact Hp
        isplitr; · iempintro
        iexact Hr))
    (htail := fun c Q' => by
      rw [show (unscopedRestP (Ix := Unit) (Name := ℕ) (U := UR sig nD τ) (Lvl := ℕ) (pcfgs (F := F) 0).pre spec0 c (V m c) : sProp 𝕄)
            = unscopedRest spec0 c (V m c) from unscopedRestP_none spec0 c (V m c),
          show (unscopedRestP (Ix := Unit) (Name := ℕ) (U := UR sig nD τ) (Lvl := ℕ) (pcfgs (F := F) 0).pre spec0 c (Vend m c) : sProp 𝕄)
            = unscopedRest spec0 c (Vend m c) from unscopedRestP_none spec0 c (Vend m c)]
      exact tail_run m c Q')
    (QY := fun c s => ∀ b ∈ restRefsP sig (pcfgs (F := F) 0).pre spec0, s.mem ((c.tc : Thread nD τ).loc b) = Vend m c b)
    (hY := fun c s' => by
      iintro ⟨-, HU, HSI⟩
      unfold unscopedRestP
      imodintro
      iapply (pointsTo_read_all (restRefsP sig (pcfgs (F := F) 0).pre spec0) (fun b => (c.tc : Thread nD τ).loc b) (Vend m c) s')
      isplitl [HU] <;> iassumption)
    (hQ := fun s h c => ⟨(h c).1, rest_of_restP (pcfgs (F := F) 0).pre spec0 ((cfgs 0).toPCfg_adm (Val := Elt F)).1 c (Vend m c) s (fun k => k.elim0) (h c).2.1 (h c).2.2⟩)

end Cert.Kernel.Point

end
-- ==== Proof.WordFrame.lean ====
/-
  The frame of the program around the row-tiled kernel: the run ends with the three arguments unchanged. They are
  bypassing buffers of the pipeline (no window stages them), and none of the 42 host operations writes them: each host
  operation writes its own result buffer only. Also read off the run: the program's result is the host operations after
  the call applied to the result array the pipeline left.
-/
import proofs.«163947_j46145128629049_2_alg».proof.Proof.WordRun

set_option maxRecDepth 16384

noncomputable section

namespace Cert.Kernel.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations before the call leave a buffer none of them writes as launched: here the three arguments. -/
theorem W0_arg0 (c : Dev nD) : W0 m c main_arg0 = m ((c.tc : Thread nD τ).loc main_arg0) := by
  unfold W0 before
  simp only [hostOps0, hostOps0_1, List.flatten_cons, List.flatten_nil, List.append_nil, List.cons_append, List.nil_append]
  after_results
theorem W0_arg1 (c : Dev nD) : W0 m c main_arg1 = m ((c.tc : Thread nD τ).loc main_arg1) := by
  unfold W0 before
  simp only [hostOps0, hostOps0_1, List.flatten_cons, List.flatten_nil, List.append_nil, List.cons_append, List.nil_append]
  after_results
theorem W0_arg2 (c : Dev nD) : W0 m c main_arg2 = m ((c.tc : Thread nD τ).loc main_arg2) := by
  unfold W0 before
  simp only [hostOps0, hostOps0_1, List.flatten_cons, List.flatten_nil, List.append_nil, List.cons_append, List.nil_append]
  after_results

/-- The host operations after the call write four buffers of their own; every other buffer is as at the region's exit, -/
theorem Wend_of_ne (c : Dev nD) (b : Ref sig .tc) (h1 : b ≠ main_cst_5) (h2 : b ≠ main_v28) (h3 : b ≠ main_cst_6) (h4 : b ≠ main_v29) :
    Wend m c b = Wx m c b := by
  refine StableHlo.after_of_forall_not_mem _ _ fun op hop => ?_
  simp only [afterOps, List.flatten_cons, List.flatten_nil, List.append_nil, hostOps1, List.mem_cons, List.mem_nil_iff, or_false] at hop
  rcases hop with rfl | rfl | rfl | rfl
  all_goals simp only [StableHlo.nullary_writes, StableHlo.binary_writes, Finset.mem_singleton]
  · exact StableHlo.devRef_ne_of_ne h1
  · exact StableHlo.devRef_ne_of_ne h2
  · exact StableHlo.devRef_ne_of_ne h3
  · exact StableHlo.devRef_ne_of_ne h4

/-- and off the result array the region's exit is its entry. -/
theorem Wx_of_ne (c : Dev nD) (b : Ref sig .tc) (h : b ≠ main_v27) : Wx m c b = W0 m c b :=
  Function.update_of_ne (StableHlo.devRef_ne_of_ne h) _ _

theorem Vend_arg0 (c : Dev nD) : Vend m c main_arg0 = m ((c.tc : Thread nD τ).loc main_arg0) :=
  (Wend_of_ne m c main_arg0 (by decide) (by decide) (by decide) (by decide)).trans ((Wx_of_ne m c main_arg0 (by decide)).trans (W0_arg0 m c))
theorem Vend_arg1 (c : Dev nD) : Vend m c main_arg1 = m ((c.tc : Thread nD τ).loc main_arg1) :=
  (Wend_of_ne m c main_arg1 (by decide) (by decide) (by decide) (by decide)).trans ((Wx_of_ne m c main_arg1 (by decide)).trans (W0_arg1 m c))
theorem Vend_arg2 (c : Dev nD) : Vend m c main_arg2 = m ((c.tc : Thread nD τ).loc main_arg2) :=
  (Wend_of_ne m c main_arg2 (by decide) (by decide) (by decide) (by decide)).trans ((Wx_of_ne m c main_arg2 (by decide)).trans (W0_arg2 m c))

/-- The arguments bypass the pipeline. -/
theorem arg0_rest : main_arg0 ∈ restRefs sig spec0 := mem_restRefs_of main_arg0 rfl (by decide)
theorem arg1_rest : main_arg1 ∈ restRefs sig spec0 := mem_restRefs_of main_arg1 rfl (by decide)
theorem arg2_rest : main_arg2 ∈ restRefs sig spec0 := mem_restRefs_of main_arg2 rfl (by decide)
theorem v29_rest : main_v29 ∈ restRefs sig spec0 := mem_restRefs_of main_v29 rfl (by decide)

/-- THE FRAME: every execution ends, nothing faults, the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 arg0_rest).trans (Vend_arg0 m c),
      ((h c).2 main_arg1 arg1_rest).trans (Vend_arg1 m c), ((h c).2 main_arg2 arg2_rest).trans (Vend_arg2 m c)⟩) (run_main m ρ)

end Cert.Kernel.Point

end
-- ==== Proof.IdealPoint.lean ====
/-
  One grid point of the row-tiled kernel. The body reads its row tile of the normalised embeddings (512 rows), the
  tile's labels and thresholds, and — sixteen times — a block of 1024 rows of the whole embedding matrix with the
  labels of those rows; from each block it forms the 512 x 1024 tile of inner products, keeps an entry only where the
  two labels differ and the product exceeds the row's threshold (replacing it by the product less the threshold, else
  by zero), takes the row maxima, and folds them into a running maximum that starts at zero. The 512 running maxima
  are stored as the point's block of the result. Here: the body's Hoare triple on whole staging buffers, what the
  result buffer holds afterwards as one pure term of the five input buffers' contents, the pipeline's proof data
  (every input buffer keeps its block; the embedding matrix is handed to two windows, each holding half of the
  right to read it), and the body obligation at every grid point.
-/
import proofs.«163947_j46145128629049_2_alg».proof.Proof.Gen.KernelIdeal.Launch
import proofs.«163947_j46145128629049_2_alg».proof.Proof.Gen.KernelIdeal.Skeleton
import proofs.«163947_j46145128629049_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's rectangles -/

/-- The whole row tile, the whole label column, the whole threshold column, the whole result block. -/
abbrev rRow : Rect S512x256 := Rect.unit (s := S512x256) ![0, 0] S512x256.size inb_S512x256_S512x256_0_0
abbrev rCol1 : Rect S512x1 := Rect.unit (s := S512x1) ![0, 0] S512x1.size inb_S512x1_S512x1_0_0
abbrev rOut : Rect S512 := Rect.unit (s := S512) ![0] S512.size inb_S512_S512_0
/-- Block `k` of 1024 rows of the embedding matrix, and the labels of those rows. -/
abbrev rBlk (k : Fin 16) : Rect S16384x256 := Rect.unit (s := S16384x256) (k0_off1 (BitVec.ofNat 32 k.val)) S1024x256.size (k0_off1_inb k)
abbrev rLab (k : Fin 16) : Rect S1x16384 := Rect.unit (s := S1x16384) (k0_off2 (BitVec.ofNat 32 k.val)) S1x1024.size (k0_off2_inb k)

/-! ## What the body stores -/

/-- The running maximum after all sixteen blocks, as the body computes it from its five input buffers: row tile `x0`,
    embedding matrix `x1`, the tile's labels `x2`, all labels `x3`, the tile's thresholds `x4`. The printed body is cut
    into eight parts; this is their composition. -/
def runMax (x0 : Vec F S512x256 .f32) (x1 : Vec F S16384x256 .f32) (x2 : Vec F S512x1 .i32) (x3 : Vec F S1x16384 .i32)
    (x4 : Vec F S512x1 .f32) : FVec F S512x1 .f32 :=
  let v0 := View.ld x0 rRow
  let v2 := View.ld x2 rCol1
  let v4 := View.ld x4 rCol1
  let b (k : Fin 16) := View.ld x1 (rBlk k)
  let l (k : Fin 16) := View.ld x3 (rLab k)
  let v1 := k0_pay2 v0
  let v3 := k0_pay3 v2
  let v5 := k0_pay4 v4
  let v28 := k0_pay5 v0 v2 v4 (b 0) (l 0)
  let v37 := k0_pay6 v0 (b 1)
  let v38 := k0_pay7 (F := F) v2
  let v39 := k0_pay8 (F := F) (l 1)
  let v72 := k0_pay9 v1 v3 v5 v28 v37 v38 v39 (b 2) (l 2)
  let v81 := k0_pay10 v1 (b 3)
  let v84 := k0_pay11 (F := F) v3 (l 3)
  let v85 := k0_pay12 v5
  let v116 := k0_pay13 v1 v3 v5 v72 v81 v84 v85 (b 4) (l 4)
  let v125 := k0_pay14 v1 (b 5)
  let v131 := k0_pay15 v1 v3 v5 (b 5) (l 5)
  let v160 := k0_pay16 v1 v3 v5 v116 v125 v131 (b 6) (l 6)
  let v175 := k0_pay18 v1 v3 v5 (b 7) (l 7)
  let v177 := k0_pay19 v1 v5 (b 7)
  let v204 := k0_pay20 v1 v3 v5 v160 v175 v177 (b 8) (l 8)
  let v219 := k0_pay22 v1 v3 v5 (b 9) (l 9)
  let v221 := k0_pay23 v1 v5 (b 9)
  let v222 := k0_pay24 (F := F)
  let v248 := k0_pay25 v1 v3 v5 v204 v219 v221 v222 (b 10) (l 10)
  let v267 := k0_pay26 v1 v3 v5 (b 11) (l 11)
  let v292 := k0_pay27 v1 v3 v5 v248 v267 (b 12) (l 12)
  let v313 := k0_pay28 v1 v3 v5 (b 13) (l 13)
  k0_pay29 v1 v3 v5 v292 v313 (b 14) (l 14) (b 15) (l 15)

/-- The result buffer after the body: its one store, of the running maxima as a vector of 512. -/
def tileOut (x0 : Vec F S512x256 .f32) (x1 : Vec F S16384x256 .f32) (x2 : Vec F S512x1 .i32) (x3 : Vec F S1x16384 .i32)
    (x4 : Vec F S512x1 .f32) : Vec F S512 .f32 :=
  View.canon [⟨rOut, k0_pay1 (runMax x0 x1 x2 x3 x4)⟩]

/-- The one store fills the result block. -/
theorem cover_out (p0 : Vec F S512 .f32) (y : S512.Idx) :
    ∃ pc ∈ ([⟨rOut, p0⟩] : List (View.Piece (Elt F) S512 .f32)), y ∈ pc.1.set :=
  View.cover_of_tiled [⟨rOut, p0⟩] S512.size (by rfl) y

/-! ## The body's triple -/

set_option maxHeartbeats 4000000 in
/-- The body on whole staging buffers: the five inputs at contents `x0 … x4` and the result buffer at anything run to
    the inputs as they were and the result buffer at `tileOut` of them. -/
theorem sound_kernel (c : Dev nD) (E : Set ℕ) (i : grid0.Coords)
    (arg1 : Memref sig .tc .vmem S512x256 .f32) (harg1 : arg1.IsWhole) (arg2 : Memref sig .tc .vmem S16384x256 .f32) (harg2 : arg2.IsWhole)
    (arg3 : Memref sig .tc .vmem S512x1 .i32) (harg3 : arg3.IsWhole) (arg4 : Memref sig .tc .vmem S1x16384 .i32) (harg4 : arg4.IsWhole)
    (arg5 : Memref sig .tc .vmem S512x1 .f32) (harg5 : arg5.IsWhole) (arg6 : Memref sig .tc .vmem S512 .f32) (harg6 : arg6.IsWhole)
    (x0 : Vec F S512x256 .f32) (x1 : Vec F S16384x256 .f32) (x2 : Vec F S512x1 .i32) (x3 : Vec F S1x16384 .i32) (x4 : Vec F S512x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (tileOut x0 x1 x2 x3 x4)) -∗ K ⟨⟩))
      ⊢ wp frame (wpE (defs₀ (F := F)) Variants.none c none) E (cc0__loss_kernel i arg1 harg1 arg2 harg2 arg3 harg3 arg4 harg4 arg5 harg5 arg6 harg6) K := by
  simp only [cc0__loss_kernel_eq_skeleton]; unfold cc0__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

end Cert.KernelIdeal.Point

end
-- ==== Proof.IdealData.lean ====
/-
  The pipeline's proof data for the row-tiled kernel. When the region is entered the buffers hold the launch contents
  after the host operations before the call (the normalised embeddings, the thresholds, the labels as a column and as
  a row). Window `w`'s block at grid point `t` is read off its array as the region finds it: rows 512·t … 512·t+511 of
  the embeddings, of the label column and of the threshold column; the whole embedding matrix and the whole label row
  at every point. After the body each input buffer still holds its block and the result buffer holds the tile's
  running maxima. The embedding matrix is one array behind two windows: each window holds one half of the right to
  read it. Then the body obligation: at every point the body, started on the blocks, leaves exactly that.
-/
import proofs.«163947_j46145128629049_2_alg».proof.Proof.IdealPoint
import Idealize.ShloMosaic.Lib.Pipeline.FrameSuffix

set_option maxRecDepth 16384

noncomputable section

namespace Cert.KernelIdeal.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the region's entry -/

/-- The host operations before the call, in order: the row norms, then everything else. -/
abbrev before : List (List (HloOp τ sig (Elt F))) := [hostOps0, hostOps0_1]

/-- Core `c`'s buffers when the region is entered: the launch contents after the host operations before the call. -/
def W0 (c : Dev nD) : Valuation τ sig (Elt F) := StableHlo.after (before (F := F)).flatten (fun b => m (c, b))

abbrev V (c : Dev nD) (b : Ref sig .tc) : Buf (Elt F) ((c : Thread nD τ).loc b) := W0 m c b

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The proof data on core `c`: the arrays as the region finds them; after the body each input's buffer at its block and
    the result's at the tile's running maxima; the invariant is the untouched scoped rest and generator register; nothing
    owed; the embedding matrix read at half the full share by each of its two windows, every other array held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileOut (iblk m c 0 t) (iblk m c 1 t) (iblk m c 2 t) (iblk m c 3 t) (iblk m c 4 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = tileOut (iblk m c 0 t) (iblk m c 1 t) (iblk m c 2 t) (iblk m c 3 t) (iblk m c 4 t) := by dsimp only [dats]

/-- The shares: halves of the embedding matrix, everything else whole. -/
theorem share0 (c : Dev nD) : (dats m 0 c).share 0 = fullShare.left := by unfold Dat.share; rfl
theorem share1 (c : Dev nD) : (dats m 0 c).share 1 = fullShare.right := by unfold Dat.share; rfl
theorem share2 (c : Dev nD) : (dats m 0 c).share 2 = fullShare := by unfold Dat.share; rfl
theorem share3 (c : Dev nD) : (dats m 0 c).share 3 = fullShare := by unfold Dat.share; rfl
theorem share4 (c : Dev nD) : (dats m 0 c).share 4 = fullShare := by unfold Dat.share; rfl
theorem share5 (c : Dev nD) : (dats m 0 c).share 5 = fullShare := by unfold Dat.share; rfl

/-- Each input's current staging buffer holds its block at every point, fetched there or not: unfetched, the block
    index has not moved since the fetch, and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Point

end
-- ==== Proof.IdealRun.lean ====
/-
  The run of the whole program around the row-tiled kernel. @main is: the host operations before the call (row norms,
  normalised embeddings, gathered thresholds, the labels as a column and as a row), the call, and the host operations
  after it (the sum of the 16384 row losses and its division by 16384). The normalised embeddings are ONE array handed
  to the kernel through two windows (a streamed row tile and the whole matrix, resident): at the region's entry its
  points-to is split in two halves, one per window, and at the exit the halves are put together again, so that the
  host operations after the call run over all unscoped buffers as usual. The result: every execution ends, every
  array of the pipeline holds what the write-backs left (an input: its entry contents) and every other unscoped buffer
  what the host operations computed — the arguments, which nothing writes, among them.
-/
import proofs.«163947_j46145128629049_2_alg».proof.Proof.IdealData

set_option maxRecDepth 16384

noncomputable section

namespace Cert.KernelIdeal.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations after the call: the sum of the result and its division by the number of rows. -/
abbrev afterOps : List (List (HloOp τ sig (Elt F))) := [hostOps1]

theorem before_sub : (before (F := F)).Forall fun ops => ops.Forall fun op => op.bufs ⊆ StableHlo.tcRefs τ sig :=
  ⟨hostOps0_sub, hostOps0_1_sub⟩

theorem before_fresh : (before (F := F)).Forall fun ops => ops.Forall fun op => op.fresh = ∅ :=
  ⟨⟨rfl, rfl, rfl, rfl, rfl⟩, ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩⟩

/-- @main is the host operations before the call, the call, and the host operations after it. -/
theorem hmain : Pipeline.HMainK (Ix := Unit) (Name := ℕ) (U := UR sig nD τ) (Lvl := ℕ) cfgs 0 defs₀ Variants.none m (main (F := F)) (V m)
    (fun _ => Pipeline.chain ((afterOps (F := F)).map StableHlo.seq)) :=
  Pipeline.hmain_around cfgs 0 defs₀ Variants.none m main (before (F := F)) (afterOps (F := F)) before_sub before_fresh
    (fun c => (main_chain c).trans rfl)

/-- Core `c`'s buffers at the region's exit: the result array at what the write-backs left, everything else as entered. -/
def Wx (c : Dev nD) : Valuation τ sig (Elt F) :=
  Function.update (W0 m c) (Proc.devRef .tc main_v27) ((dats m 0 c).arrAt 5 cfg0.N)

/-- Core `c`'s buffers at the end: after the host operations that follow the call. -/
def Wend (c : Dev nD) : Valuation τ sig (Elt F) := StableHlo.after (afterOps (F := F)).flatten (Wx m c)

abbrev Vx (c : Dev nD) (b : Ref sig .tc) : Buf (Elt F) ((c : Thread nD τ).loc b) := Wx m c b
abbrev Vend (c : Dev nD) (b : Ref sig .tc) : Buf (Elt F) ((c : Thread nD τ).loc b) := Wend m c b

/-- The distinct buffers behind the windows' arrays, one by one: the embeddings, the label column, the label row, the
    thresholds, the result. -/
theorem arrBufs_eq (c : Dev nD) (Vv : (b : Ref sig .tc) → Buf (Elt F) ((c.tc : Thread nD τ).loc b)) :
    (Pipeline.arrBufs spec0 c Vv : sProp 𝕄)
      = iprop((((c.tc : Thread nD τ).loc main_v4) ↦{fullShare} Vv main_v4) ∗ (((c.tc : Thread nD τ).loc main_v25) ↦{fullShare} Vv main_v25)
          ∗ (((c.tc : Thread nD τ).loc main_v26) ↦{fullShare} Vv main_v26) ∗ (((c.tc : Thread nD τ).loc main_v24) ↦{fullShare} Vv main_v24)
          ∗ (((c.tc : Thread nD τ).loc main_v27) ↦{fullShare} Vv main_v27)) :=
  bigSep_eq_bigSepL_of_eq [main_v4, main_v25, main_v26, main_v24, main_v27] (by decide) (by decide) _

/-- The five buffers behind the six windows' arrays, whole at the full share at contents `Vv`, are the proof data's
    arrays at the same contents: the embedding matrix's points-to split in two halves, one per window that reads it. -/
theorem arrays_of_arrBufs (c : Dev nD) (Vv : (b : Ref sig .tc) → Buf (Elt F) ((c.tc : Thread nD τ).loc b))
    (F' : (w : Fin cfg0.W) → Buf (Elt F) ((cfg0.win w).arr.view.loc (c.tc : Thread nD τ)))
    (hF : ∀ w, F' w = Vv (Pipeline.arrRef spec0 w)) :
    (Pipeline.arrBufs spec0 c Vv : sProp 𝕄) ⊢ (dats m 0 c).arrays F' := by
  have h0 : (cfg0.win 0).arr.view.set = Finset.univ := (arr_whole0 0).set_eq_univ
  have h1 : (cfg0.win 1).arr.view.set = Finset.univ := (arr_whole0 1).set_eq_univ
  have h2 : (cfg0.win 2).arr.view.set = Finset.univ := (arr_whole0 2).set_eq_univ
  have h3 : (cfg0.win 3).arr.view.set = Finset.univ := (arr_whole0 3).set_eq_univ
  have h4 : (cfg0.win 4).arr.view.set = Finset.univ := (arr_whole0 4).set_eq_univ
  have h5 : (cfg0.win 5).arr.view.set = Finset.univ := (arr_whole0 5).set_eq_univ
  rw [arrBufs_eq]
  unfold Dat.arrays
  rw [bigSep_W0]
  rw [share0, share1, share2, share3, share4, share5, hF 0, hF 1, hF 2, hF 3, hF 4, hF 5]
  simp only [h0, h1, h2, h3, h4, h5]
  iintro ⟨H4, H25, H26, H24, H27⟩
  ihave H4' := (pointsTo_share (PosShare.mem_left_op_right fullShare)).1 $$ H4
  icases H4' with ⟨HL, HR⟩
  isplitl [HL]; · iexact HL
  isplitl [HR]; · iexact HR
  isplitl [H25]; · iexact H25
  isplitl [H26]; · iexact H26
  isplitl [H24]; · iexact H24
  iexact H27

/-- and back: the two halves of the embedding matrix's points-to rejoined. -/
theorem arrBufs_of_arrays (c : Dev nD) (Vv : (b : Ref sig .tc) → Buf (Elt F) ((c.tc : Thread nD τ).loc b))
    (F' : (w : Fin cfg0.W) → Buf (Elt F) ((cfg0.win w).arr.view.loc (c.tc : Thread nD τ)))
    (hF : ∀ w, F' w = Vv (Pipeline.arrRef spec0 w)) :
    (dats m 0 c).arrays F' ⊢ (Pipeline.arrBufs spec0 c Vv : sProp 𝕄) := by
  have h0 : (cfg0.win 0).arr.view.set = Finset.univ := (arr_whole0 0).set_eq_univ
  have h1 : (cfg0.win 1).arr.view.set = Finset.univ := (arr_whole0 1).set_eq_univ
  have h2 : (cfg0.win 2).arr.view.set = Finset.univ := (arr_whole0 2).set_eq_univ
  have h3 : (cfg0.win 3).arr.view.set = Finset.univ := (arr_whole0 3).set_eq_univ
  have h4 : (cfg0.win 4).arr.view.set = Finset.univ := (arr_whole0 4).set_eq_univ
  have h5 : (cfg0.win 5).arr.view.set = Finset.univ := (arr_whole0 5).set_eq_univ
  rw [arrBufs_eq]
  unfold Dat.arrays
  rw [bigSep_W0]
  rw [share0, share1, share2, share3, share4, share5, hF 0, hF 1, hF 2, hF 3, hF 4, hF 5]
  simp only [h0, h1, h2, h3, h4, h5]
  iintro ⟨HL, HR, H25, H26, H24, H27⟩
  ihave H4 := (pointsTo_share (PosShare.mem_left_op_right fullShare)).2 $$ [HL HR]
  · isplitl [HL]; · iexact HL
    iexact HR
  isplitl [H4]; · iexact H4
  isplitl [H25]; · iexact H25
  isplitl [H26]; · iexact H26
  isplitl [H24]; · iexact H24
  iexact H27

/-- The host operations after the call touch TensorCore buffers only and allocate nothing. -/
theorem after_sub : ∀ ops ∈ (afterOps (F := F)), ∀ op ∈ ops, op.bufs ⊆ ucRefs τ sig := by
  intro ops hops op hop
  simp only [List.mem_cons, List.mem_nil_iff, or_false] at hops
  rcases hops with rfl
  exact sub_ucRefs op ((List.forall_iff_forall_mem.mp hostOps1_sub) op hop)

theorem after_fresh : ∀ ops ∈ (afterOps (F := F)), ∀ op ∈ ops, op.fresh = ∅ := by
  intro ops hops op hop
  simp only [List.mem_cons, List.mem_nil_iff, or_false] at hops
  rcases hops with rfl
  simp only [hostOps1, List.mem_cons, List.mem_nil_iff, or_false] at hop
  rcases hop with rfl | rfl | rfl | rfl <;> rfl

/-- They write none of the pipeline's arrays: each writes its own result buffer. -/
theorem after_keeps : ∀ op ∈ (afterOps (F := F)).flatten, ∀ w, Proc.devRef .tc (Pipeline.arrRef spec0 w) ∉ op.writes := by
  intro op hop
  simp only [afterOps, List.flatten_cons, List.flatten_nil, List.append_nil, hostOps1, List.mem_cons, List.mem_nil_iff, or_false] at hop
  rcases hop with rfl | rfl | rfl | rfl
  all_goals intro w; fin_cases w <;> simp only [StableHlo.nullary_writes, StableHlo.binary_writes, Finset.mem_singleton] <;> exact StableHlo.devRef_ne_of_ne (by decide)

/-- At the region's exit every array holds what the exit valuation says: the inputs as entered, the result at its
    write-backs. -/
theorem arrAt_Vx (c : Dev nD) : ∀ w, (dats m 0 c).arrAt w cfg0.N = Vx m c (Pipeline.arrRef spec0 w)
  | ⟨0, _⟩ => ((dats m 0 c).arrAt_in 0 rfl _).trans ((A_eq m c 0).trans (Function.update_of_ne (StableHlo.devRef_ne_of_ne (by decide)) _ _).symm)
  | ⟨1, _⟩ => ((dats m 0 c).arrAt_in 1 rfl _).trans ((A_eq m c 1).trans (Function.update_of_ne (StableHlo.devRef_ne_of_ne (by decide)) _ _).symm)
  | ⟨2, _⟩ => ((dats m 0 c).arrAt_in 2 rfl _).trans ((A_eq m c 2).trans (Function.update_of_ne (StableHlo.devRef_ne_of_ne (by decide)) _ _).symm)
  | ⟨3, _⟩ => ((dats m 0 c).arrAt_in 3 rfl _).trans ((A_eq m c 3).trans (Function.update_of_ne (StableHlo.devRef_ne_of_ne (by decide)) _ _).symm)
  | ⟨4, _⟩ => ((dats m 0 c).arrAt_in 4 rfl _).trans ((A_eq m c 4).trans (Function.update_of_ne (StableHlo.devRef_ne_of_ne (by decide)) _ _).symm)
  | ⟨5, _⟩ => show (dats m 0 c).arrAt 5 cfg0.N = Function.update (W0 m c) (Proc.devRef .tc main_v27) ((dats m 0 c).arrAt 5 cfg0.N) (Proc.devRef .tc main_v27) from by rw [Function.update_self]

/-- and still does after the host operations that follow. -/
theorem arrAt_Vend (c : Dev nD) (w : Fin cfg0.W) : (dats m 0 c).arrAt w cfg0.N = Vend m c (Pipeline.arrRef spec0 w) :=
  (arrAt_Vx m c w).trans (StableHlo.after_of_forall_not_mem _ _ fun op hop => after_keeps op hop w).symm

/-- Off the arrays the exit valuation is the entry valuation. -/
theorem rest_Vx (c : Dev nD) :
    (unscopedRest (Ix := Unit) (Name := ℕ) (U := UR sig nD τ) (Lvl := ℕ) spec0 c (V m c) : sProp 𝕄) = unscopedRest spec0 c (Vx m c) := by
  unfold unscopedRest
  exact bigSep_congr fun b hb => by
    rw [show Vx m c b = V m c b from Function.update_of_ne (fun e => (Finset.mem_sdiff.mp hb).2
      (Finset.mem_image.mpr ⟨5, Finset.mem_univ _, (Proc.devRef_injective _ e).symm⟩)) _ _]

/-- The arrays at the region's exit and the bypassing buffers as entered are all the unscoped buffers at the exit
    valuation, -/
theorem held_exit (c : Dev nD) :
    iprop((dats m 0 c).arrays ((dats m 0 c).arrAt · cfg0.N) ∗ unscopedRest spec0 c (V m c))
      ⊢ (StableHlo.held (c.tc : Thread nD τ) (ucRefs τ sig) (Wx m c) : sProp 𝕄) :=
  (BIClass.sep_mono (arrBufs_of_arrays m c (Vx m c) _ (arrAt_Vx m c)) (Entails.of_eq (rest_Vx m c))).trans
    (Entails.of_eq ((Pipeline.unscopedBufs_split₀ cfgs 0 winFacts₀0.arr_unscoped c (Vx m c)).symm.trans (unscopedBufs_held c (Wx m c))))

/-- and all the unscoped buffers at the final valuation are the arrays, unchanged, and the bypassing buffers there. -/
theorem held_end (c : Dev nD) :
    (StableHlo.held (c.tc : Thread nD τ) (ucRefs τ sig) (Wend m c) : sProp 𝕄)
      ⊢ iprop((dats m 0 c).arrays ((dats m 0 c).arrAt · cfg0.N) ∗ unscopedRest spec0 c (Vend m c)) :=
  (Entails.of_eq ((unscopedBufs_held c (Wend m c)).symm.trans (Pipeline.unscopedBufs_split₀ cfgs 0 winFacts₀0.arr_unscoped c (Vend m c)))).trans
    (BIClass.sep_mono (arrays_of_arrBufs m c (Vend m c) _ (arrAt_Vend m c)) .rfl)

set_option backward.isDefEq.respectTransparency.types false in
/-- The host operations after the call, run from the region's exit: the two halves of the embedding matrix are put
    together again, the operations run over all unscoped buffers, and the arrays are dealt out again as they were. -/
theorem tail_run (c : Dev nD) (Q' : PUnit → sProp 𝕄) :
    iprop((iprop((dats m 0 c).arrays ((dats m 0 c).arrAt · cfg0.N) ∗ unscopedRest spec0 c (Vend m c)) -∗ Q' ⟨⟩)
        ∗ boundary (c.tc : Thread nD τ) ∗ (dats m 0 c).arrays ((dats m 0 c).arrAt · cfg0.N) ∗ unscopedRest spec0 c (V m c))
      ⊢ wp frame (wpE (defs (F := F)) (Variants.lift Variants.none) (c.tc : Thread nD τ) none) Set.univ
          (chain ((afterOps (F := F)).map StableHlo.seq)) Q' := by
  rw [← List.append_nil ((afterOps (F := F)).map StableHlo.seq)]
  iintro ⟨HQ, Hb, Ha, HZ⟩
  ihave HU := (held_exit m c) $$ [Ha HZ]
  · isplitl [Ha]; · iexact Ha
    iexact HZ
  iapply (wp_seqs_then (fun q => (cfgs q).toPCfg (Val := Elt F)) defs₀ Variants.none c (ucRefs τ sig) [] (afterOps (F := F)) after_sub after_fresh (Wx m c)) $$ [Hb HU]
  · isplitl [Hb]; · iexact Hb
    iexact HU
  iintro Hb
  rw [chain_nil, wp_pure]
  imodintro
  iapply HQ
  icases Hb with ⟨-, H⟩
  iapply (held_end m c)
  iexact H

set_option backward.isDefEq.respectTransparency.types false in
/-- THE RUN. From any memory, every weakly fair execution of @main ends; then every array of the pipeline holds what the
    write-backs left (an input its entry contents) and every other unscoped buffer what the host operations computed —
    in particular the arguments, which nothing writes, and the mean of the result. -/
theorem run_main : θ_run defs (onTc (τ := τ) (main (F := F))) (s₀ m ρ) (Pipeline.FramePost cfgs (dats m) 0 (Vend m)) := by
  classical
  exact Pipeline.θ_run_region_pf_tail (fun q => (cfgs q).toPCfg (Val := Elt F)) (fun q => (cfgs q).toPCfg_adm) (dats m) () cellOf_inj 0
    winFacts₀0 (OwnSemFacts.none spec0) (PreFacts.none _) emb₁ defs₀ Variants.none m ρ main
    (fun _ => Pipeline.chain ((afterOps (F := F)).map StableHlo.seq)) (fun c => (body_obligation m c).loose)
    block_pos0 arr_whole0 stage_whole0 (fun _ _ => rfl)
    (G := fun _ => iprop(emp)) (u₀ := initOf (cells cfgs cellOf_inj) (launchToks cfgs cellOf_inj))
    (hu₀ := by
      iintro Hu; imodintro
      isplitl [Hu]; · iapply (show (ownU _ : sProp 𝕄) ⊢ BI.own (emb₁ (initOf (cells cfgs cellOf_inj) (launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m)
    (hsplit := fun c => arrays_of_arrBufs m c (V m c) _ (fun w => A_eq m c w))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) (pcfgs (F := F) 0).pre spec0 c (V m c))
    (Z' := fun c => unscopedRestP (Ix := Unit) (Name := ℕ) (U := UR sig nD τ) (Lvl := ℕ) (pcfgs (F := F) 0).pre spec0 c (Vend m c))
    (hX := fun c => by
      iintro ⟨HU, -, -, -, Hp, -⟩; imodintro
      isplitl [Hp]; · iexists _; iexact Hp
      iexact HU)
    (hin := fun c => (show _ ⊢ iprop(ΦA spec0 c) by
      unfold ΦA; iintro ⟨Hp, -, Hr⟩
      isplitl [Hr] <;> iassumption))
    (hout := fun c => (show (ΦA spec0 c : sProp 𝕄) ⊢ _ by
        rw [ownSems0_none]; unfold ΦA
        iintro ⟨Hr, Hp⟩
        isplitl [Hp]; · iexact Hp
        isplitr; · iempintro
        iexact Hr))
    (htail := fun c Q' => by
      rw [show (unscopedRestP (Ix := Unit) (Name := ℕ) (U := UR sig nD τ) (Lvl := ℕ) (pcfgs (F := F) 0).pre spec0 c (V m c) : sProp 𝕄)
            = unscopedRest spec0 c (V m c) from unscopedRestP_none spec0 c (V m c),
          show (unscopedRestP (Ix := Unit) (Name := ℕ) (U := UR sig nD τ) (Lvl := ℕ) (pcfgs (F := F) 0).pre spec0 c (Vend m c) : sProp 𝕄)
            = unscopedRest spec0 c (Vend m c) from unscopedRestP_none spec0 c (Vend m c)]
      exact tail_run m c Q')
    (QY := fun c s => ∀ b ∈ restRefsP sig (pcfgs (F := F) 0).pre spec0, s.mem ((c.tc : Thread nD τ).loc b) = Vend m c b)
    (hY := fun c s' => by
      iintro ⟨-, HU, HSI⟩
      unfold unscopedRestP
      imodintro
      iapply (pointsTo_read_all (restRefsP sig (pcfgs (F := F) 0).pre spec0) (fun b => (c.tc : Thread nD τ).loc b) (Vend m c) s')
      isplitl [HU] <;> iassumption)
    (hQ := fun s h c => ⟨(h c).1, rest_of_restP (pcfgs (F := F) 0).pre spec0 ((cfgs 0).toPCfg_adm (Val := Elt F)).1 c (Vend m c) s (fun k => k.elim0) (h c).2.1 (h c).2.2⟩)

end Cert.KernelIdeal.Point

end
-- ==== Proof.IdealFrame.lean ====
/-
  The frame of the program around the row-tiled kernel: the run ends with the three arguments unchanged. They are
  bypassing buffers of the pipeline (no window stages them), and none of the 42 host operations writes them: each host
  operation writes its own result buffer only. Also read off the run: the program's result is the host operations after
  the call applied to the result array the pipeline left.
-/
import proofs.«163947_j46145128629049_2_alg».proof.Proof.IdealRun

set_option maxRecDepth 16384

noncomputable section

namespace Cert.KernelIdeal.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations before the call leave a buffer none of them writes as launched: here the three arguments. -/
theorem W0_arg0 (c : Dev nD) : W0 m c main_arg0 = m ((c.tc : Thread nD τ).loc main_arg0) := by
  unfold W0 before
  simp only [hostOps0, hostOps0_1, List.flatten_cons, List.flatten_nil, List.append_nil, List.cons_append, List.nil_append]
  after_results
theorem W0_arg1 (c : Dev nD) : W0 m c main_arg1 = m ((c.tc : Thread nD τ).loc main_arg1) := by
  unfold W0 before
  simp only [hostOps0, hostOps0_1, List.flatten_cons, List.flatten_nil, List.append_nil, List.cons_append, List.nil_append]
  after_results
theorem W0_arg2 (c : Dev nD) : W0 m c main_arg2 = m ((c.tc : Thread nD τ).loc main_arg2) := by
  unfold W0 before
  simp only [hostOps0, hostOps0_1, List.flatten_cons, List.flatten_nil, List.append_nil, List.cons_append, List.nil_append]
  after_results

/-- The host operations after the call write four buffers of their own; every other buffer is as at the region's exit, -/
theorem Wend_of_ne (c : Dev nD) (b : Ref sig .tc) (h1 : b ≠ main_cst_5) (h2 : b ≠ main_v28) (h3 : b ≠ main_cst_6) (h4 : b ≠ main_v29) :
    Wend m c b = Wx m c b := by
  refine StableHlo.after_of_forall_not_mem _ _ fun op hop => ?_
  simp only [afterOps, List.flatten_cons, List.flatten_nil, List.append_nil, hostOps1, List.mem_cons, List.mem_nil_iff, or_false] at hop
  rcases hop with rfl | rfl | rfl | rfl
  all_goals simp only [StableHlo.nullary_writes, StableHlo.binary_writes, Finset.mem_singleton]
  · exact StableHlo.devRef_ne_of_ne h1
  · exact StableHlo.devRef_ne_of_ne h2
  · exact StableHlo.devRef_ne_of_ne h3
  · exact StableHlo.devRef_ne_of_ne h4

/-- and off the result array the region's exit is its entry. -/
theorem Wx_of_ne (c : Dev nD) (b : Ref sig .tc) (h : b ≠ main_v27) : Wx m c b = W0 m c b :=
  Function.update_of_ne (StableHlo.devRef_ne_of_ne h) _ _

theorem Vend_arg0 (c : Dev nD) : Vend m c main_arg0 = m ((c.tc : Thread nD τ).loc main_arg0) :=
  (Wend_of_ne m c main_arg0 (by decide) (by decide) (by decide) (by decide)).trans ((Wx_of_ne m c main_arg0 (by decide)).trans (W0_arg0 m c))
theorem Vend_arg1 (c : Dev nD) : Vend m c main_arg1 = m ((c.tc : Thread nD τ).loc main_arg1) :=
  (Wend_of_ne m c main_arg1 (by decide) (by decide) (by decide) (by decide)).trans ((Wx_of_ne m c main_arg1 (by decide)).trans (W0_arg1 m c))
theorem Vend_arg2 (c : Dev nD) : Vend m c main_arg2 = m ((c.tc : Thread nD τ).loc main_arg2) :=
  (Wend_of_ne m c main_arg2 (by decide) (by decide) (by decide) (by decide)).trans ((Wx_of_ne m c main_arg2 (by decide)).trans (W0_arg2 m c))

/-- The arguments bypass the pipeline. -/
theorem arg0_rest : main_arg0 ∈ restRefs sig spec0 := mem_restRefs_of main_arg0 rfl (by decide)
theorem arg1_rest : main_arg1 ∈ restRefs sig spec0 := mem_restRefs_of main_arg1 rfl (by decide)
theorem arg2_rest : main_arg2 ∈ restRefs sig spec0 := mem_restRefs_of main_arg2 rfl (by decide)
theorem v29_rest : main_v29 ∈ restRefs sig spec0 := mem_restRefs_of main_v29 rfl (by decide)

/-- THE FRAME: every execution ends, nothing faults, the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 arg0_rest).trans (Vend_arg0 m c),
      ((h c).2 main_arg1 arg1_rest).trans (Vend_arg1 m c), ((h c).2 main_arg2 arg2_rest).trans (Vend_arg2 m c)⟩) (run_main m ρ)

end Cert.KernelIdeal.Point

end
-- ==== Proof.LossSpec.lean ====
/-
  The loss of one row, as a function on the extended reals. For unit rows `E i` (256 entries each), labels `T i` and
  thresholds `θ i`: the similarity of two rows is their inner product; an entry `(i, j)` counts when the labels differ and
  the similarity exceeds row `i`'s threshold, and then contributes the excess, else zero; the loss of row `i` is the
  largest contribution over all `j`. The diagonal entry never counts (a label does not differ from itself), so every
  row's loss is at least zero: a running maximum that starts at zero computes the same number.
-/
import Idealize.ShloMosaic.PureOps.Ideal
import Idealize.ShloMosaic.Lib.ValueIdx

noncomputable section

namespace Cert.LossSpec

/-- The inner product of two rows. -/
def sim (e f : Fin 256 → EReal) : EReal := ∑ k : Fin 256, e k * f k

/-- One entry's contribution: the excess of the similarity `s` over the threshold `θ` when the labels differ and there
    is an excess, else zero. -/
def hinge (ti tj : BitVec 32) (θ s : EReal) : EReal := if ti ≠ tj ∧ θ < s then s - θ else 0

/-- The loss of row `i`: the largest contribution over all columns. -/
def rowLoss (E : Fin 16384 → Fin 256 → EReal) (T : Fin 16384 → BitVec 32) (θ : Fin 16384 → EReal) (i : Fin 16384) : EReal :=
  Finset.univ.sup fun j : Fin 16384 => hinge (T i) (T j) (θ i) (sim (E i) (E j))

/-- The same for a row given apart from the matrix it is compared with, floored at zero: what a running maximum that
    starts at zero computes. -/
def tileLoss (e : Fin 256 → EReal) (t : BitVec 32) (θ : EReal) (E : Fin 16384 → Fin 256 → EReal) (T : Fin 16384 → BitVec 32) : EReal :=
  (Finset.univ.sup fun j : Fin 16384 => hinge t (T j) θ (sim e (E j))) ⊔ 0

/-- An entry between equal labels contributes nothing. -/
theorem hinge_self (t : BitVec 32) (θ s : EReal) : hinge t t θ s = 0 := by
  unfold hinge; rw [if_neg]; exact fun h => h.1 rfl

/-- For a row of the matrix itself the floor is idle: the diagonal entry already contributes zero. -/
theorem tileLoss_self (E : Fin 16384 → Fin 256 → EReal) (T : Fin 16384 → BitVec 32) (θ : Fin 16384 → EReal) (i : Fin 16384) :
    tileLoss (E i) (T i) (θ i) E T = rowLoss E T θ i := by
  unfold tileLoss rowLoss
  refine sup_eq_left.mpr ?_
  calc (0 : EReal) = hinge (T i) (T i) (θ i) (sim (E i) (E i)) := (hinge_self _ _ _).symm
    _ ≤ _ := Finset.le_sup (f := fun j : Fin 16384 => hinge (T i) (T j) (θ i) (sim (E i) (E j))) (Finset.mem_univ i)

end Cert.LossSpec

end
-- ==== Proof.IdealValue.lean ====
/-
  From blocks to the array. Grid point `t` stores the 512 running maxima of rows 512·t … 512·t+511; its input blocks are
  those rows of the embeddings, of the label column and of the threshold column, and the whole embedding matrix and label
  row. Given what a tile computes at a row (the floored loss of that row against the whole matrix), the block a point
  writes back is block `t` of ONE function of the arrays — the vector of floored row losses — and the 32 blocks fill the
  result, so after the run the result array is that vector.
-/
import proofs.«163947_j46145128629049_2_alg».proof.Proof.IdealFrame
import proofs.«163947_j46145128629049_2_alg».proof.Proof.LossSpec
import Idealize.ShloMosaic.Lib.Pipeline.Value
import Idealize.ShloMosaic.Lib.ValueIdx

set_option maxRecDepth 16384

noncomputable section

namespace Cert.KernelIdeal.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal Cert.KernelIdeal.Gen
open Idealize.ShloMosaic.ValueIdx Cert.LossSpec

local notation "𝕄" => MT nD τ sig Unit (Elt Ideal) ℕ (UR sig nD τ) ℕ

variable (m : (ℓ : Loc nD τ sig) → Buf (Elt Ideal) ℓ) (ρ : Dev nD → PrngReg)

theorem hz1 : (![0] : Fin 1 → Nat) = fun _ => 0 := funext fun a => by fin_cases a; rfl

/-- The losses as one function of the embeddings, the labels (as a column and as a row) and the thresholds. -/
def lossVec (E : S16384x256.Idx → EReal) (Tc : S16384x1.Idx → BitVec 32) (Tr : S1x16384.Idx → BitVec 32) (θ : S16384x1.Idx → EReal) :
    S16384.Idx → EReal :=
  fun i => tileLoss (fun k => E (ix2 (i 0) k)) (Tc (ix2 (i 0) 0)) (θ (ix2 (i 0) 0)) (fun j k => E (ix2 j k)) (fun j => Tr (ix2 0 j))

/-- The tile's statement, as a hypothesis the assembly discharges: the stored vector at row `p` is the floored loss of
    that row of the tile against the whole matrix. -/
abbrev TileEq : Prop :=
  ∀ (x0 : Vec Ideal S512x256 .f32) (x1 : Vec Ideal S16384x256 .f32) (x2 : Vec Ideal S512x1 .i32) (x3 : Vec Ideal S1x16384 .i32)
    (x4 : Vec Ideal S512x1 .f32) (p : Fin 512),
    k0_pay1 (F := Ideal) (runMax x0 x1 x2 x3 x4) (ix1 p)
      = tileLoss (fun k => x0 (ix2 p k)) (x2 (ix2 p 0)) (x4 (ix2 p 0)) (fun j k => x1 (ix2 j k)) (fun j => x3 (ix2 0 j))

/-- A tile whose buffers hold rows `r` of the arrays computes row `r` of the losses. -/
theorem tile_to_loss (htile : TileEq) (x0 : Vec Ideal S512x256 .f32) (x1 : Vec Ideal S16384x256 .f32) (x2 : Vec Ideal S512x1 .i32)
    (x3 : Vec Ideal S1x16384 .i32) (x4 : Vec Ideal S512x1 .f32)
    (A4 : S16384x256.Idx → EReal) (A25 : S16384x1.Idx → BitVec 32) (A26 : S1x16384.Idx → BitVec 32) (A24 : S16384x1.Idx → EReal)
    (r : Fin 16384) (p : Fin 512)
    (h0 : ∀ k : Fin 256, x0 (ix2 p k) = A4 (ix2 r k)) (h2 : x2 (ix2 p 0) = A25 (ix2 r 0)) (h4 : x4 (ix2 p 0) = A24 (ix2 r 0))
    (h1 : ∀ (j : Fin 16384) (k : Fin 256), x1 (ix2 j k) = A4 (ix2 j k)) (h3 : ∀ j : Fin 16384, x3 (ix2 0 j) = A26 (ix2 0 j)) :
    k0_pay1 (F := Ideal) (runMax x0 x1 x2 x3 x4) (ix1 p) = lossVec A4 A25 A26 A24 (ix1 r) := by
  rw [htile]
  unfold lossVec
  simp only [h0, h1, h2, h3, h4]

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 1) = t.val :=
  (by decide +kernel : ∀ t : Fin grid0.N, _)

/-- Row `p` of point `t`'s tile is row `512·t + p` of the arrays. -/
theorem row_lt (t : Fin cfg0.N) (p : Fin 512) : t.val * 512 + p.val < 16384 := by
  have h : t.val < 32 := lt_of_lt_of_eq t.isLt N_0
  omega

set_option maxHeartbeats 100000 in
theorem emb0 (t : Fin cfg0.N) (p : Fin 512) (k : Fin 256) :
    ((cfg0.win 0).blk t).view.emb (ix2 p k) = ix2 (⟨t.val * 512 + p.val, row_lt t p⟩ : Fin 16384) k := by
  obtain ⟨e00, e01, -⟩ := idx_facts t
  funext a; apply Fin.ext
  match a with
  | ⟨0, _⟩ => show win0_0.index t (0 : Fin 2) * 512 + 1 * p.val = t.val * 512 + p.val; rw [e00]; omega
  | ⟨1, _⟩ => show win0_0.index t (1 : Fin 2) * 256 + 1 * k.val = k.val; rw [e01]; omega

set_option maxHeartbeats 100000 in
theorem emb1 (t : Fin cfg0.N) (j : Fin 16384) (k : Fin 256) : ((cfg0.win 1).blk t).view.emb (ix2 j k) = ix2 j k := by
  obtain ⟨-, -, e10, e11, -⟩ := idx_facts t
  funext a; apply Fin.ext
  match a with
  | ⟨0, _⟩ => show win0_1.index t (0 : Fin 2) * 16384 + 1 * j.val = j.val; rw [e10]; omega
  | ⟨1, _⟩ => show win0_1.index t (1 : Fin 2) * 256 + 1 * k.val = k.val; rw [e11]; omega

set_option maxHeartbeats 100000 in
theorem emb2 (t : Fin cfg0.N) (p : Fin 512) :
    ((cfg0.win 2).blk t).view.emb (ix2 p (0 : Fin 1)) = ix2 (⟨t.val * 512 + p.val, row_lt t p⟩ : Fin 16384) (0 : Fin 1) := by
  obtain ⟨-, -, -, -, e20, e21, -⟩ := idx_facts t
  funext a; apply Fin.ext
  match a with
  | ⟨0, _⟩ => show win0_2.index t (0 : Fin 2) * 512 + 1 * p.val = t.val * 512 + p.val; rw [e20]; omega
  | ⟨1, _⟩ => show win0_2.index t (1 : Fin 2) * 1 + 1 * 0 = 0; rw [e21]

set_option maxHeartbeats 100000 in
theorem emb3 (t : Fin cfg0.N) (j : Fin 16384) : ((cfg0.win 3).blk t).view.emb (ix2 (0 : Fin 1) j) = ix2 (0 : Fin 1) j := by
  obtain ⟨-, -, -, -, -, -, e30, e31, -⟩ := idx_facts t
  funext a; apply Fin.ext
  match a with
  | ⟨0, _⟩ => show win0_3.index t (0 : Fin 2) * 1 + 1 * 0 = 0; rw [e30]
  | ⟨1, _⟩ => show win0_3.index t (1 : Fin 2) * 16384 + 1 * j.val = j.val; rw [e31]; omega

set_option maxHeartbeats 100000 in
theorem emb4 (t : Fin cfg0.N) (p : Fin 512) :
    ((cfg0.win 4).blk t).view.emb (ix2 p (0 : Fin 1)) = ix2 (⟨t.val * 512 + p.val, row_lt t p⟩ : Fin 16384) (0 : Fin 1) := by
  obtain ⟨-, -, -, -, -, -, -, -, e40, e41, -⟩ := idx_facts t
  funext a; apply Fin.ext
  match a with
  | ⟨0, _⟩ => show win0_4.index t (0 : Fin 2) * 512 + 1 * p.val = t.val * 512 + p.val; rw [e40]; omega
  | ⟨1, _⟩ => show win0_4.index t (1 : Fin 2) * 1 + 1 * 0 = 0; rw [e41]

set_option maxHeartbeats 100000 in
theorem emb5 (t : Fin cfg0.N) (p : Fin 512) :
    ((cfg0.win 5).blk t).view.emb (ix1 p) = ix1 (⟨t.val * 512 + p.val, row_lt t p⟩ : Fin 16384) := by
  obtain ⟨-, -, -, -, -, -, -, -, -, -, e5⟩ := idx_facts t
  funext a; apply Fin.ext
  match a with
  | ⟨0, _⟩ => show win0_5.index t (0 : Fin 1) * 512 + 1 * p.val = t.val * 512 + p.val; rw [e5]; omega

set_option maxHeartbeats 400000 in
/-- WHAT POINT `t` WRITES BACK is block `t` of the losses of the arrays as the region finds them. -/
theorem flushed_eq (htile : TileEq) (c : Dev nD) (t : Fin cfg0.N) :
    (dats m 0 c).flushed 5 t
      = ((cfg0.win 5).blk t).view.read (Elt Ideal) (lossVec (V m c main_v4) (V m c main_v25) (V m c main_v26) (V m c main_v24)) := by
  show (cfg0.win 5).cut (grid0.coords t) ((dats m 0 c).after 5 t) = _
  rw [after0_5]
  unfold tileOut
  rw [View.canon_unit_zero hz1]
  funext y
  obtain ⟨p, rfl⟩ : ∃ p : Fin 512, y = ix1 p := ⟨y 0, eq_ix1 y⟩
  show k0_pay1 (F := Ideal) (runMax (iblk m c 0 t) (iblk m c 1 t) (iblk m c 2 t) (iblk m c 3 t) (iblk m c 4 t)) (ix1 p)
    = lossVec (V m c main_v4) (V m c main_v25) (V m c main_v26) (V m c main_v24) (((cfg0.win 5).blk t).view.emb (ix1 p))
  rw [emb5]
  exact tile_to_loss htile _ _ _ _ _ _ _ _ _ _ p
    (fun k => by show V m c main_v4 (((cfg0.win 0).blk t).view.emb (ix2 p k)) = _; rw [emb0])
    (by show V m c main_v25 (((cfg0.win 2).blk t).view.emb (ix2 p 0)) = _; rw [emb2])
    (by show V m c main_v24 (((cfg0.win 4).blk t).view.emb (ix2 p 0)) = _; rw [emb4])
    (fun j k => by show V m c main_v4 (((cfg0.win 1).blk t).view.emb (ix2 j k)) = _; rw [emb1])
    (fun j => by show V m c main_v26 (((cfg0.win 3).blk t).view.emb (ix2 0 j)) = _; rw [emb3])

/-- An index of the result is in point `t`'s block iff it lies in rows 512·t … 512·t+511. -/
theorem mem_blk (t : Fin cfg0.N) (i : S16384.Idx) :
    i ∈ ((cfg0.win 5).blk t).view.set ↔ ∀ a : Fin 1, win0_5.index t a * S512.size a ≤ (i a).val ∧ (i a).val < win0_5.index t a * S512.size a + S512.size a := by
  show i ∈ ((View.whole main_v27).slice (win0_5.rect t)).set ↔ _
  rw [View.set_slice_whole, Rect.mem_set_unit]
  exact Iff.rfl

/-- The 32 blocks of 512 rows fill the result: row `r` is in block `r / 512`. -/
theorem cover (i : S16384.Idx) : ∃ t : Fin cfg0.N, (cfg0.win 5).flush t = true ∧ i ∈ ((cfg0.win 5).blk t).view.set := by
  have hi : (i 0).val < 16384 := (i 0).isLt
  have hN : cfg0.N = 32 := N_0
  have ht : (i 0).val / 512 < cfg0.N := by omega
  refine ⟨⟨(i 0).val / 512, ht⟩, flush0_5 _, ?_⟩
  rw [mem_blk]
  intro a
  obtain ⟨-, -, -, -, -, -, -, -, -, -, e5⟩ := idx_facts ⟨(i 0).val / 512, ht⟩
  match a with
  | ⟨0, _⟩ =>
    show win0_5.index ⟨(i 0).val / 512, ht⟩ (0 : Fin 1) * 512 ≤ (i 0).val ∧ (i 0).val < win0_5.index ⟨(i 0).val / 512, ht⟩ (0 : Fin 1) * 512 + 512
    rw [e5]
    show (i 0).val / 512 * 512 ≤ (i 0).val ∧ (i 0).val < (i 0).val / 512 * 512 + 512
    omega

/-- THE RESULT ARRAY after the run: the losses of the arrays as the region finds them. -/
theorem final (htile : TileEq) (c : Dev nD) :
    (dats m 0 c).arrAt 5 cfg0.N = lossVec (V m c main_v4) (V m c main_v25) (V m c main_v26) (V m c main_v24) :=
  (dats m 0 c).arrAt_eq_of_cover 5 _ (fun t _ => flushed_eq m htile c t) cover

end Cert.KernelIdeal.Point

end
-- ==== Proof.RefRows.lean ====
/-
  The reference's row losses. The reference forms the full matrix of contributions — entry (i, j) is the excess of the
  similarity of rows i and j over row i's threshold when the labels differ and there is an excess, else zero — and takes,
  for each row, the maximum over the columns starting from −∞. Read at a row this is the supremum over all columns of the
  contribution, which is the row loss of the specification: the maximum fold from the bottom element of the extended
  reals over a whole finite type is the supremum, the similarity is the inner product of the two rows of unit vectors,
  and the selection on the two conditions is the if-then-else of the specification.
-/
import proofs.«163947_j46145128629049_2_alg».proof.Proof.Gen.ReferenceIdeal.Read
import proofs.«163947_j46145128629049_2_alg».proof.Proof.LossSpec

noncomputable section

namespace Cert.ReferenceIdeal.RefValue

open Cert.ReferenceIdeal Cert.ReferenceIdeal.Gen Idealize.ShloMosaic Idealize.ShloMosaic.TcCoe Idealize.SL.Sem Idealize.ShloMosaic.StableHlo

/-- A maximum fold from the bottom element over all of a finite type is the supremum over it. -/
theorem fold_max_bot_eq_sup {ι : Type} [Fintype ι] (f : ι → EReal) :
    (Finset.univ : Finset ι).fold max ⊥ f = Finset.univ.sup f := rfl

/-- Dropping the column axis of the square matrix leaves the vector of rows. -/
theorem reduces_rows : S16384x16384.Reduces [1] S16384 := by decide

/-- The row index `i` with the column `k` put back is (i, k). -/
theorem lift_row (i : Fin 16384) (k : Fin (S16384x16384.size 1)) :
    reduces_rows.lift (ValueIdx.ix1 i) k = ValueIdx.ix2 i (⟨k.val, k.isLt⟩ : Fin 16384) := by
  funext c; apply Fin.ext
  fin_cases c <;> rfl

/-- From −∞ the reduction with a maximum body along the columns of a square matrix is, at row `i`, the supremum of
    that row's entries. -/
theorem hostReduce_max_rows (x : (⟨S16384x16384, .f32⟩ : BufTy).Contents (Elt Ideal)) (i : Fin 16384) :
    Host.reduce (FloatOps.maximumf (F := Ideal) (φ := .f32)) x (Read.val_main_cst_6 (F := Ideal)) reducesTo_S16384x16384_S16384_d1 h_S_ (ValueIdx.ix1 i)
      = Finset.univ.sup fun j : Fin 16384 => x (ValueIdx.ix2 i j) := by
  rw [Host.reduce_eq_fold_single (FloatOps.maximumf (F := Ideal) (φ := .f32)) x _ reducesTo_S16384x16384_S16384_d1 reduces_rows h_S_]
  have hf : (x ∘ reduces_rows.lift (ValueIdx.ix1 i)) = fun k : Fin (S16384x16384.size 1) => x (ValueIdx.ix2 i (⟨k.val, k.isLt⟩ : Fin 16384)) :=
    funext fun k => congrArg x (lift_row i k)
  rw [hf]
  -- the initial value is −∞, the bottom element
  have hb : Read.val_main_cst_6 (F := Ideal) (Shape.Idx.first h_S_) = (⊥ : EReal) := by
    show Ideal.ofBits .f32 0xFF800000#32 = ⊥
    simp [Ideal.ofBits, Ideal.ieee]
  rw [hb]
  exact fold_max_bot_eq_sup (ι := Fin 16384) fun j => x (ValueIdx.ix2 i j)

/-- Selecting the excess `s - θ` on the conjunction of "the labels differ" and "`s` exceeds `θ`", else zero, is the
    contribution of the specification. -/
theorem select_hinge (a b : BitVec 32) (θ s : EReal) :
    Scalar.select (IntOp.andi (IntOp.cmpi .ne a b) (Ideal.cmp .ogt s θ)) (s - θ) (0 : EReal) = Cert.LossSpec.hinge a b θ s := by
  unfold Cert.LossSpec.hinge Scalar.select IntOp.andi IntOp.cmpi Ideal.cmp
  by_cases hab : a = b
  · subst hab; simp
  · have h1 : (a != b) = true := by simp [hab]
    by_cases hs : θ < s
    · simp [h1, hs, hab]
    · simp [h1, hs, hab]

/-! The composed index maps of the broadcasts, the transpose and the contraction, at the entry (r, j). -/

/-- The label broadcast along the columns reads row `r`'s label. -/
theorem idx_left (r j : Fin 16384) : Read.idx_main_v7 (Read.idx_main_v9 (ValueIdx.ix2 r j)) = ValueIdx.ix1 r := by
  funext a; match a with | ⟨0, _⟩ => rfl
/-- The label broadcast along the rows reads column `j`'s label. -/
theorem idx_right (r j : Fin 16384) : Read.idx_main_v8 (Read.idx_main_v10 (ValueIdx.ix2 r j)) = ValueIdx.ix1 j := by
  funext a; match a with | ⟨0, _⟩ => rfl
/-- The threshold broadcast along the columns (in the comparison) reads row `r`'s threshold. -/
theorem idx_thr32 (r j : Fin 16384) : Read.idx_main_v32 (ValueIdx.ix2 r j) = ValueIdx.ix2 r (0 : Fin 1) := by
  funext a; match a with | ⟨0, _⟩ => rfl | ⟨1, _⟩ => rfl
/-- The threshold broadcast along the columns (in the subtraction) reads row `r`'s threshold. -/
theorem idx_thr35 (r j : Fin 16384) : Read.idx_main_v35 (ValueIdx.ix2 r j) = ValueIdx.ix2 r (0 : Fin 1) := by
  funext a; match a with | ⟨0, _⟩ => rfl | ⟨1, _⟩ => rfl
/-- The contraction's left factor at step `k` is entry `k` of row `r`. -/
theorem idx_dotl (r j : Fin 16384) (k : Fin 256) : Read.lidx_main_v6 (ValueIdx.ix2 r j) k = ValueIdx.ix2 r k := by
  funext a; match a with | ⟨0, _⟩ => rfl | ⟨1, _⟩ => rfl
/-- The contraction's right factor at step `k`, through the transpose, is entry `k` of row `j`. -/
theorem idx_dotr (r j : Fin 16384) (k : Fin 256) : Read.idx_main_v5 (Read.ridx_main_v6 (ValueIdx.ix2 r j) k) = ValueIdx.ix2 j k := by
  funext a; match a with | ⟨0, _⟩ => rfl | ⟨1, _⟩ => rfl

/-- Entry (r, j) of the similarity matrix is the inner product of rows `r` and `j` of the unit vectors. -/
theorem sim_eq (x0 : (⟨S16384x256, .f32⟩ : BufTy).Contents (Elt Ideal)) (r j : Fin 16384) :
    Read.val_main_v6 (F := Ideal) x0 (ValueIdx.ix2 r j)
      = Cert.LossSpec.sim (fun k => Read.val_main_v4 (F := Ideal) x0 (ValueIdx.ix2 r k)) (fun k => Read.val_main_v4 (F := Ideal) x0 (ValueIdx.ix2 j k)) := by
  rw [Read.val_main_v6_apply]
  unfold Cert.LossSpec.sim
  refine Finset.sum_congr rfl fun k _ => ?_
  rw [Read.val_main_v5_apply, idx_dotl, idx_dotr]

/-- Entry (r, j) of the matrix of contributions is the specification's contribution of column `j` to row `r`. -/
theorem filtered_eq (x0 : (⟨S16384x256, .f32⟩ : BufTy).Contents (Elt Ideal)) (x1 : (⟨S16384x1000, .f32⟩ : BufTy).Contents (Elt Ideal))
    (x2 : (⟨S16384, .i32⟩ : BufTy).Contents (Elt Ideal)) (r j : Fin 16384) :
    Read.val_main_v38 (F := Ideal) x0 x1 x2 (ValueIdx.ix2 r j)
      = Cert.LossSpec.hinge (x2 (ValueIdx.ix1 r)) (x2 (ValueIdx.ix1 j)) (Read.val_main_v31 (F := Ideal) x1 x2 (ValueIdx.ix2 r 0))
          (Cert.LossSpec.sim (fun k => Read.val_main_v4 (F := Ideal) x0 (ValueIdx.ix2 r k)) (fun k => Read.val_main_v4 (F := Ideal) x0 (ValueIdx.ix2 j k))) := by
  rw [← select_hinge, ← sim_eq]
  rw [Read.val_main_v38_apply, Read.val_main_v34_apply, Read.val_main_v11_apply, Read.val_main_v9_apply, Read.val_main_v7_apply,
    Read.val_main_v10_apply, Read.val_main_v8_apply, Read.val_main_v33_apply, Read.val_main_v32_apply, Read.val_main_v36_apply,
    Read.val_main_v35_apply, Read.val_main_v37_apply, Read.val_main_cst_5_apply, idx_left, idx_right, idx_thr32, idx_thr35]
  rw [Ideal.ofBits_def, Ideal.ofBits_zero_f32]
  rfl

/-- The reference's vector of row maxima is, at each row, the row loss of the specification over the unit vectors, the
    labels and the thresholds (the threshold stage read at its single column). -/
theorem rows_eq (x0 : (⟨S16384x256, .f32⟩ : BufTy).Contents (Elt Ideal)) (x1 : (⟨S16384x1000, .f32⟩ : BufTy).Contents (Elt Ideal))
    (x2 : (⟨S16384, .i32⟩ : BufTy).Contents (Elt Ideal)) :
    Read.val_main_v39 (F := Ideal) x0 x1 x2
      = fun i => Cert.LossSpec.rowLoss (fun r k => Read.val_main_v4 (F := Ideal) x0 (ValueIdx.ix2 r k)) (fun r => x2 (ValueIdx.ix1 r))
          (fun r => Read.val_main_v31 (F := Ideal) x1 x2 (ValueIdx.ix2 r 0)) (i 0) := by
  funext i
  obtain ⟨r, rfl⟩ : ∃ r : Fin 16384, i = ValueIdx.ix1 r := ⟨i 0, ValueIdx.eq_ix1 i⟩
  unfold Read.val_main_v39
  rw [hostReduce_max_rows]
  show _ = Cert.LossSpec.rowLoss _ _ _ r
  unfold Cert.LossSpec.rowLoss
  exact Finset.sup_congr rfl fun j _ => filtered_eq x0 x1 x2 r j

end Cert.ReferenceIdeal.RefValue

end
-- ==== Proof.TileValue.lean ====
/-
  The tile of the kernel at one grid point, read at a row: sixteen rounds, each forming the inner products of the 512
  rows of the tile with a block of 1024 rows of the whole matrix, keeping the excess over the row's threshold where the
  labels differ, taking the row maxima and folding them into a running maximum that starts at zero. At row `p` the
  result is the largest kept excess over all 16384 columns, floored at zero.
-/
import proofs.«163947_j46145128629049_2_alg».proof.Proof.IdealPoint
import proofs.«163947_j46145128629049_2_alg».proof.Proof.LossSpec
import Idealize.ShloMosaic.PureOps.Ideal.Laws
import Idealize.ShloMosaic.Lib.ValueIdx
import Idealize.ShloMosaic.Lib.Pipeline.Value

set_option maxRecDepth 16384

noncomputable section

namespace Cert.KernelIdeal.TileValue

open Idealize.ShloMosaic Idealize.ShloMosaic.ValueIdx
open Cert.KernelIdeal Cert.KernelIdeal.Gen Cert.KernelIdeal.Point

/-- One round as a pure function of the row tile `v1`, the tile's labels `v3` and thresholds `v5`, the running
    maximum `acc`, and the round's block of rows `blk` with their labels `lab`. -/
def round (v1 : FVec Ideal S512x256 .f32) (v3 : IVec S512x1 32) (v5 : FVec Ideal S512x1 .f32) (acc : FVec Ideal S512x1 .f32)
    (blk : Vec Ideal S1024x256 .f32) (lab : Vec Ideal S1x1024 .i32) : FVec Ideal S512x1 .f32 :=
  have b1 : FVec Ideal S1024x256 .f32 := shapeCast S1024x256 blk shapeCasts_S1024x256_S1024x256
  have l1 : IVec S1x1024 32 := shapeCast S1x1024 lab shapeCasts_S1x1024_S1x1024
  have z : FVec Ideal S512x1024 .f32 := constant S512x1024 .f32 0x00000000#32
  have mm : FVec Ideal S512x1024 .f32 := matmul dot_S512x256_S1024x256_S512x1024_1_1_0_0_n_n (some .fp32) v1 b1 z
  have c0 : IVec S512x1024 32 := broadcastTo S512x1024 v3 broadcasts_S512x1_S512x1024
  have c1 : IVec S512x1024 32 := broadcastTo S512x1024 l1 broadcasts_S1x1024_S512x1024
  have ne : IVec S512x1024 1 := cmpi .ne c0 c1
  have th : FVec Ideal S512x1024 .f32 := broadcastTo S512x1024 v5 broadcasts_S512x1_S512x1024
  have gt : IVec S512x1024 1 := cmpf .ogt mm th
  have m : IVec S512x1024 1 := andi ne gt
  have th' : FVec Ideal S512x1024 .f32 := broadcastTo S512x1024 v5 broadcasts_S512x1_S512x1024
  have d : FVec Ideal S512x1024 .f32 := subf mm th'
  have zz : FVec Ideal S512x1024 .f32 := broadcast S512x1024 (Scalar.ofBits .f32 0x00000000#32 : Ideal .f32)
  have s : FVec Ideal S512x1024 .f32 := select m d zz
  have r : FVec Ideal S512 .f32 := multiReduction .maximumf [1] S512 s 0xFF800000#32 reduces_S512x1024_S512 (.inl rfl) rfl
  have rc : FVec Ideal S512x1 .f32 := shapeCast S512x1 r shapeCasts_S512_S512x1
  maximumf acc rc

/-- The zero vector the running maximum starts at. -/
def zero512 : FVec Ideal S512x1 .f32 := broadcast S512x1 (Scalar.ofBits .f32 0x00000000#32 : Ideal .f32)

/-! ## The layout operations of a round, read at coordinates -/

/-- A vector of 512 viewed as a column reads, at `(p, 0)`, its entry `p`. -/
theorem col_cast_apply {α : Type} (r : S512.Idx → α) (p : Fin 512) :
    shapeCast S512x1 r shapeCasts_S512_S512x1 (ix2 p (0 : Fin 1)) = r (ix1 p) := by
  refine shapeCast_apply r _ _ _ ?_
  rw [Shape.rowMajor_val_one, Shape.rowMajor_val_two]
  show p.val = p.val * 1 + 0
  omega

/-- A column of 512 viewed as a vector reads, at `p`, its entry `(p, 0)`. -/
theorem vec_cast_apply {α : Type} (r : S512x1.Idx → α) (p : Fin 512) :
    shapeCast S512 r shapeCasts_S512x1_S512 (ix1 p) = r (ix2 p (0 : Fin 1)) := by
  refine shapeCast_apply r _ _ _ ?_
  rw [Shape.rowMajor_val_one, Shape.rowMajor_val_two]
  show p.val * 1 + 0 = p.val
  omega

/-- A column broadcast along the rows of a 512 x 1024 tile reads its entry of the row. -/
theorem bcast_col_apply {α : Type} (x : S512x1.Idx → α) (p : Fin 512) (j : Fin 1024) :
    broadcastTo S512x1024 x broadcasts_S512x1_S512x1024 (ix2 p j) = x (ix2 p (0 : Fin 1)) := by
  refine broadcastTo_apply x _ _ _ (fun a => ?_)
  match a with
  | ⟨0, _⟩ => show p.val = if (512 : Nat) = 1 then 0 else p.val; rw [if_neg (by decide)]
  | ⟨1, _⟩ => show (0 : Nat) = if (1 : Nat) = 1 then 0 else j.val; rw [if_pos rfl]

/-- A row broadcast down the columns of a 512 x 1024 tile reads its entry of the column. -/
theorem bcast_row_apply {α : Type} (x : S1x1024.Idx → α) (p : Fin 512) (j : Fin 1024) :
    broadcastTo S512x1024 x broadcasts_S1x1024_S512x1024 (ix2 p j) = x (ix2 (0 : Fin 1) j) := by
  refine broadcastTo_apply x _ _ _ (fun a => ?_)
  match a with
  | ⟨0, _⟩ => show (0 : Nat) = if (1 : Nat) = 1 then 0 else p.val; rw [if_pos rfl]
  | ⟨1, _⟩ => show j.val = if (1024 : Nat) = 1 then 0 else j.val; rw [if_neg (by decide)]

/-! ## The product of the tile with a block, read at an entry -/

/-- The left operand's row coordinate at an entry of the product is the entry's row. -/
theorem lhs_row (i : S512x1024.Idx) (q : dot_S512x256_S1024x256_S512x1024_1_1_0_0_n_n.contr.Idx) :
    (dot_S512x256_S1024x256_S512x1024_1_1_0_0_n_n.lhsIdx i q 0).val = (i 0).val := by
  unfold DotDims.lhsIdx
  rw [dif_neg (show ¬(0 : Fin S512x256.rank) ∈ dot_S512x256_S1024x256_S512x1024_1_1_0_0_n_n.lhsBatch by decide),
    dif_pos (show (0 : Fin S512x256.rank) ∈ dot_S512x256_S1024x256_S512x1024_1_1_0_0_n_n.lhsNonContracting by decide)]
  rfl

/-- The right operand's row coordinate at an entry of the product is the entry's column. -/
theorem rhs_row (i : S512x1024.Idx) (q : dot_S512x256_S1024x256_S512x1024_1_1_0_0_n_n.contr.Idx) :
    (dot_S512x256_S1024x256_S512x1024_1_1_0_0_n_n.rhsIdx i q 0).val = (i 1).val := by
  unfold DotDims.rhsIdx
  rw [dif_neg (show ¬(0 : Fin S1024x256.rank) ∈ dot_S512x256_S1024x256_S512x1024_1_1_0_0_n_n.rhsBatch by decide),
    dif_pos (show (0 : Fin S1024x256.rank) ∈ dot_S512x256_S1024x256_S512x1024_1_1_0_0_n_n.rhsNonContracting by decide)]
  rfl

/-- Entry `(p, j)` of the product of the row tile with a block's transpose, into a zero accumulator: the inner product
    of row `p` of the tile with row `j` of the block. -/
theorem mm_apply (v1 : FVec Ideal S512x256 .f32) (b : FVec Ideal S1024x256 .f32) (p : Fin 512) (j : Fin 1024) :
    matmul dot_S512x256_S1024x256_S512x1024_1_1_0_0_n_n (some .fp32) v1 b (constant (F := Ideal) S512x1024 .f32 0x00000000#32) (ix2 p j)
      = ∑ k : Fin 256, v1 (ix2 p k) * b (ix2 j k) := by
  simp only [matmul]
  rw [Ideal.matmul_constant_zero_apply, ← Equiv.sum_comp (contrEquiv1 dot_S512x256_S1024x256_S512x1024_1_1_0_0_n_n 256 rfl rfl).symm]
  refine Finset.sum_congr rfl fun k _ => ?_
  have hk := contrEquiv1_symm_val dot_S512x256_S1024x256_S512x1024_1_1_0_0_n_n 256 rfl rfl k
  have el : dot_S512x256_S1024x256_S512x1024_1_1_0_0_n_n.lhsIdx (ix2 p j) ((contrEquiv1 dot_S512x256_S1024x256_S512x1024_1_1_0_0_n_n 256 rfl rfl).symm k) = ix2 p k :=
    funext fun a => Fin.ext (by
      match a with
      | ⟨0, _⟩ => exact lhs_row _ _
      | ⟨1, _⟩ => exact (dot_S512x256_S1024x256_S512x1024_1_1_0_0_n_n.lhsIdx_val_of_single (cl := 1) rfl _ _).trans hk)
  have er : dot_S512x256_S1024x256_S512x1024_1_1_0_0_n_n.rhsIdx (ix2 p j) ((contrEquiv1 dot_S512x256_S1024x256_S512x1024_1_1_0_0_n_n 256 rfl rfl).symm k) = ix2 j k :=
    funext fun a => Fin.ext (by
      match a with
      | ⟨0, _⟩ => exact rhs_row _ _
      | ⟨1, _⟩ => exact (dot_S512x256_S1024x256_S512x1024_1_1_0_0_n_n.rhsIdx_val_of_single (cr := 1) rfl _ _).trans hk)
  rw [el, er]

/-! ## The row maximum -/

/-- The word the row maxima start from is `-∞`. -/
theorem ofBits_neg_inf : Ideal.ofBits .f32 0xFF800000#32 = ⊥ := by simp [Ideal.ofBits, Ideal.ieee]

/-- Folding `max` from `⊥` over all of a finite type is the supremum. -/
theorem fold_max_bot {ι : Type} [Fintype ι] (f : ι → EReal) :
    (Finset.univ : Finset ι).fold max ⊥ f = Finset.univ.sup f := by
  classical
  refine Finset.induction_on (Finset.univ : Finset ι) ?_ ?_
  · simp
  · intro a s ha ih
    rw [Finset.fold_insert ha, Finset.sup_insert, ih]

/-- The maximum along row `p` of a 512 x 1024 tile, from `-∞`: the supremum of the row's entries. -/
theorem rowmax_apply (s : FVec Ideal S512x1024 .f32) (p : Fin 512) :
    multiReduction (F := Ideal) .maximumf [1] S512 s 0xFF800000#32 reduces_S512x1024_S512 (.inl rfl) rfl (ix1 p)
      = Finset.univ.sup fun j : Fin 1024 => s (ix2 p j) := by
  refine (Ideal.multiReduction_maximumf_single s 0xFF800000#32 reduces_S512x1024_S512 (.inl rfl) rfl (ix1 p)).trans ?_
  rw [Ideal.ofBits_def, ofBits_neg_inf]
  refine (fold_max_bot (ι := Fin 1024) _).trans ?_
  refine congrArg (Finset.univ.sup (α := EReal)) (funext fun j => ?_)
  show s (reduces_S512x1024_S512.lift (ix1 p) j) = s (ix2 p j)
  refine congrArg s (funext fun a => Fin.ext ?_)
  match a with
  | ⟨0, _⟩ => rfl
  | ⟨1, _⟩ => rfl

/-! ## One round at a row -/

/-- The masked excess as the kernel's words compute it is the entry's contribution. -/
theorem hinge_word (ti tj : BitVec 32) (θ s : EReal) :
    Scalar.select (IntOp.andi (IntOp.cmpi .ne ti tj) (Ideal.cmp .ogt s θ)) (s - θ) (0 : EReal) = Cert.LossSpec.hinge ti tj θ s := by
  unfold Cert.LossSpec.hinge Scalar.select IntOp.andi IntOp.cmpi Ideal.cmp
  by_cases h1 : ti = tj
  · subst h1; simp
  · have hb : (ti != tj) = true := by simpa using h1
    by_cases h2 : θ < s
    · simp [h1, h2, hb]
    · simp [h1, h2, hb]

/-- One round at row `p`: the running maximum there against the largest contribution over the block's 1024 rows. -/
theorem round_apply (v1 : FVec Ideal S512x256 .f32) (v3 : IVec S512x1 32) (v5 : FVec Ideal S512x1 .f32) (acc : FVec Ideal S512x1 .f32)
    (blk : Vec Ideal S1024x256 .f32) (lab : Vec Ideal S1x1024 .i32) (p : Fin 512) :
    round v1 v3 v5 acc blk lab (ix2 p (0 : Fin 1)) =
      max (acc (ix2 p (0 : Fin 1))) (Finset.univ.sup fun j : Fin 1024 =>
        Cert.LossSpec.hinge (v3 (ix2 p (0 : Fin 1))) (lab (ix2 (0 : Fin 1) j)) (v5 (ix2 p (0 : Fin 1)))
          (∑ k : Fin 256, v1 (ix2 p k) * blk (ix2 j k))) := by
  unfold round
  refine congrArg (max (acc (ix2 p (0 : Fin 1)))) ?_
  refine (col_cast_apply _ p).trans ?_
  refine (rowmax_apply _ p).trans ?_
  refine congrArg (Finset.univ.sup (α := EReal)) (funext fun j => ?_)
  refine Eq.trans ?_ (hinge_word (v3 (ix2 p (0 : Fin 1))) (lab (ix2 (0 : Fin 1) j)) (v5 (ix2 p (0 : Fin 1))) (∑ k : Fin 256, v1 (ix2 p k) * blk (ix2 j k)))
  have e0 := bcast_col_apply v3 p j
  have e1 := bcast_row_apply lab p j
  have e2 := bcast_col_apply v5 p j
  have e3 := mm_apply v1 blk p j
  simp only [shapeCast_self]
  show Scalar.select (IntOp.andi (IntOp.cmpi .ne (broadcastTo S512x1024 v3 broadcasts_S512x1_S512x1024 (ix2 p j))
        (broadcastTo S512x1024 lab broadcasts_S1x1024_S512x1024 (ix2 p j)))
      (Ideal.cmp .ogt (matmul dot_S512x256_S1024x256_S512x1024_1_1_0_0_n_n (some .fp32) v1 blk (constant (F := Ideal) S512x1024 .f32 0x00000000#32) (ix2 p j))
        (broadcastTo S512x1024 v5 broadcasts_S512x1_S512x1024 (ix2 p j))))
      (matmul dot_S512x256_S1024x256_S512x1024_1_1_0_0_n_n (some .fp32) v1 blk (constant (F := Ideal) S512x1024 .f32 0x00000000#32) (ix2 p j)
        - broadcastTo S512x1024 v5 broadcasts_S512x1_S512x1024 (ix2 p j))
      (Ideal.ofBits .f32 0x00000000#32) = _
  rw [e0, e1, e2, e3, Ideal.ofBits_zero_f32]

/-! ## The blocks of the matrix and of the labels -/

/-- Row `j` of block `k` of the matrix is the matrix's row `1024 k + j`. -/
theorem blk_apply (x1 : Vec Ideal S16384x256 .f32) (k : Fin 16) (j : Fin 1024) (q : Fin 256) :
    (View.ld x1 (rBlk k) : Vec Ideal S1024x256 .f32) (ix2 j q)
      = x1 (ix2 (⟨1024 * k.val + j.val, by have := k.isLt; have := j.isLt; omega⟩ : Fin 16384) q) := by
  show x1 ((rBlk k).idx (ix2 j q)) = _
  refine congrArg x1 (funext fun a => Fin.ext ?_)
  have ho := k0_off1_eq k
  match a with
  | ⟨0, _⟩ =>
    show k0_off1 (BitVec.ofNat 32 k.val) 0 + 1 * j.val = 1024 * k.val + j.val
    rw [ho]; show 1024 * k.val + 1 * j.val = _; omega
  | ⟨1, _⟩ =>
    show k0_off1 (BitVec.ofNat 32 k.val) 1 + 1 * q.val = q.val
    rw [ho]; show 0 + 1 * q.val = _; omega

/-- Label `j` of block `k` of the labels is label `1024 k + j`. -/
theorem lab_apply (x3 : Vec Ideal S1x16384 .i32) (k : Fin 16) (j : Fin 1024) :
    (View.ld x3 (rLab k) : Vec Ideal S1x1024 .i32) (ix2 (0 : Fin 1) j)
      = x3 (ix2 (0 : Fin 1) (⟨1024 * k.val + j.val, by have := k.isLt; have := j.isLt; omega⟩ : Fin 16384)) := by
  show x3 ((rLab k).idx (ix2 (0 : Fin 1) j)) = _
  refine congrArg x3 (funext fun a => Fin.ext ?_)
  have ho := k0_off2_eq k
  match a with
  | ⟨0, _⟩ =>
    show k0_off2 (BitVec.ofNat 32 k.val) 0 + 1 * 0 = 0
    rw [ho]; rfl
  | ⟨1, _⟩ =>
    show k0_off2 (BitVec.ofNat 32 k.val) 1 + 1 * j.val = 1024 * k.val + j.val
    rw [ho]; show 1024 * k.val + 1 * j.val = _; omega

/-- The whole row tile, label column and threshold column, loaded and viewed at their own shapes, are the buffers. -/
theorem row_tile_eq (x0 : Vec Ideal S512x256 .f32) : k0_pay2 (F := Ideal) (View.ld x0 rRow) = x0 := by
  unfold k0_pay2
  rw [shapeCast_self]
  exact View.ld_unit_zero (by funext a; match a with | ⟨0, _⟩ => rfl | ⟨1, _⟩ => rfl) _ x0
theorem lab_col_eq (x2 : Vec Ideal S512x1 .i32) : k0_pay3 (F := Ideal) (View.ld x2 rCol1) = x2 := by
  unfold k0_pay3
  rw [shapeCast_self]
  exact View.ld_unit_zero (by funext a; match a with | ⟨0, _⟩ => rfl | ⟨1, _⟩ => rfl) _ x2
theorem thr_col_eq (x4 : Vec Ideal S512x1 .f32) : k0_pay4 (F := Ideal) (View.ld x4 rCol1) = x4 := by
  unfold k0_pay4
  rw [shapeCast_self]
  exact View.ld_unit_zero (by funext a; match a with | ⟨0, _⟩ => rfl | ⟨1, _⟩ => rfl) _ x4

/-! ## Sixteen blocks of 1024 make the 16384 columns -/

/-- A running maximum over sixteen terms, from `z`, is their supremum joined with `z`. -/
theorem join16 (z : EReal) (S : Fin 16 → EReal) :
    max (max (max (max (max (max (max (max (max (max (max (max (max (max (max (max z (S 0)) (S 1)) (S 2)) (S 3)) (S 4)) (S 5)) (S 6)) (S 7))
      (S 8)) (S 9)) (S 10)) (S 11)) (S 12)) (S 13)) (S 14)) (S 15) = Finset.univ.sup S ⊔ z := by
  apply le_antisymm
  · simp only [max_le_iff]
    and_intros <;> first | exact le_sup_right | exact le_sup_of_le_left (Finset.le_sup (f := S) (Finset.mem_univ _))
  · refine sup_le (Finset.sup_le fun k _ => ?_) ?_
    · fin_cases k <;> simp [le_max_iff]
    · simp [le_max_iff]

/-- The supremum over 16384 columns, taken block by block. -/
theorem sup_blocks (H : Fin 16384 → EReal) :
    (Finset.univ.sup fun k : Fin 16 => Finset.univ.sup fun j : Fin 1024 =>
        H ⟨1024 * k.val + j.val, by have := k.isLt; have := j.isLt; omega⟩) = Finset.univ.sup H := by
  apply le_antisymm
  · exact Finset.sup_le fun k _ => Finset.sup_le fun j _ => Finset.le_sup (f := H) (Finset.mem_univ _)
  · refine Finset.sup_le fun i _ => ?_
    have hi := i.isLt
    have e : i = ⟨1024 * (⟨i.val / 1024, by omega⟩ : Fin 16).val + (⟨i.val % 1024, Nat.mod_lt _ (by decide)⟩ : Fin 1024).val, by
        show 1024 * (i.val / 1024) + i.val % 1024 < 16384; omega⟩ := Fin.ext (by
      show i.val = 1024 * (i.val / 1024) + i.val % 1024; omega)
    refine le_trans (le_of_eq (congrArg H e)) ?_
    exact le_trans (Finset.le_sup (f := fun j : Fin 1024 => H ⟨1024 * (⟨i.val / 1024, by omega⟩ : Fin 16).val + j.val, by have := j.isLt; show 1024 * (i.val / 1024) + j.val < 16384; omega⟩) (Finset.mem_univ _))
      (Finset.le_sup (f := fun k : Fin 16 => Finset.univ.sup fun j : Fin 1024 => H ⟨1024 * k.val + j.val, by have := k.isLt; have := j.isLt; omega⟩) (Finset.mem_univ _))

/-! ## The sixteen rounds -/

/-- The sixteen rounds from the zero vector, over the blocks `B k` with labels `L k`. -/
def nest (v1 : FVec Ideal S512x256 .f32) (v3 : IVec S512x1 32) (v5 : FVec Ideal S512x1 .f32)
    (B : Fin 16 → Vec Ideal S1024x256 .f32) (L : Fin 16 → Vec Ideal S1x1024 .i32) : FVec Ideal S512x1 .f32 :=
  round v1 v3 v5 (round v1 v3 v5 (round v1 v3 v5 (round v1 v3 v5 (round v1 v3 v5 (round v1 v3 v5 (round v1 v3 v5 (round v1 v3 v5
    (round v1 v3 v5 (round v1 v3 v5 (round v1 v3 v5 (round v1 v3 v5 (round v1 v3 v5 (round v1 v3 v5 (round v1 v3 v5 (round v1 v3 v5
      zero512 (B 0) (L 0)) (B 1) (L 1)) (B 2) (L 2)) (B 3) (L 3)) (B 4) (L 4)) (B 5) (L 5)) (B 6) (L 6)) (B 7) (L 7))
    (B 8) (L 8)) (B 9) (L 9)) (B 10) (L 10)) (B 11) (L 11)) (B 12) (L 12)) (B 13) (L 13)) (B 14) (L 14)) (B 15) (L 15)

/-- The body's running maximum is the sixteen rounds over the sixteen loaded blocks. -/
theorem runMax_eq (x0 : Vec Ideal S512x256 .f32) (x1 : Vec Ideal S16384x256 .f32) (x2 : Vec Ideal S512x1 .i32)
    (x3 : Vec Ideal S1x16384 .i32) (x4 : Vec Ideal S512x1 .f32) :
    runMax (F := Ideal) x0 x1 x2 x3 x4 =
      nest (k0_pay2 (F := Ideal) (View.ld x0 rRow)) (k0_pay3 (F := Ideal) (View.ld x2 rCol1)) (k0_pay4 (F := Ideal) (View.ld x4 rCol1))
        (fun k => View.ld x1 (rBlk k)) (fun k => View.ld x3 (rLab k)) := rfl

/-- The zero vector reads zero. -/
theorem zero512_apply (i : S512x1.Idx) : zero512 i = 0 := Ideal.ofBits_zero_f32

/-- The sixteen rounds at row `p`: the largest contribution over the sixteen blocks' rows, floored at zero. -/
theorem nest_apply (v1 : FVec Ideal S512x256 .f32) (v3 : IVec S512x1 32) (v5 : FVec Ideal S512x1 .f32)
    (B : Fin 16 → Vec Ideal S1024x256 .f32) (L : Fin 16 → Vec Ideal S1x1024 .i32) (p : Fin 512) :
    nest v1 v3 v5 B L (ix2 p (0 : Fin 1)) =
      (Finset.univ.sup fun k : Fin 16 => Finset.univ.sup fun j : Fin 1024 =>
        Cert.LossSpec.hinge (v3 (ix2 p (0 : Fin 1))) (L k (ix2 (0 : Fin 1) j)) (v5 (ix2 p (0 : Fin 1)))
          (∑ q : Fin 256, v1 (ix2 p q) * B k (ix2 j q))) ⊔ 0 := by
  unfold nest
  simp only [round_apply, zero512_apply]
  exact join16 0 (fun k : Fin 16 => Finset.univ.sup fun j : Fin 1024 =>
        Cert.LossSpec.hinge (v3 (ix2 p (0 : Fin 1))) (L k (ix2 (0 : Fin 1) j)) (v5 (ix2 p (0 : Fin 1)))
          (∑ q : Fin 256, v1 (ix2 p q) * B k (ix2 j q)))

/-! ## The tile at a row -/

/-- What the body stores at row `p` of its tile: the loss of that row against the whole matrix, floored at zero. -/
theorem tile_eq (x0 : Vec Ideal S512x256 .f32) (x1 : Vec Ideal S16384x256 .f32) (x2 : Vec Ideal S512x1 .i32)
    (x3 : Vec Ideal S1x16384 .i32) (x4 : Vec Ideal S512x1 .f32) (p : Fin 512) :
    k0_pay1 (F := Ideal) (runMax (F := Ideal) x0 x1 x2 x3 x4) (ix1 p)
      = Cert.LossSpec.tileLoss (fun k => x0 (ix2 p k)) (x2 (ix2 p (0 : Fin 1))) (x4 (ix2 p (0 : Fin 1)))
          (fun j k => x1 (ix2 j k)) (fun j => x3 (ix2 (0 : Fin 1) j)) := by
  unfold k0_pay1
  refine (vec_cast_apply _ p).trans ?_
  rw [runMax_eq, nest_apply, row_tile_eq, lab_col_eq, thr_col_eq]
  unfold Cert.LossSpec.tileLoss Cert.LossSpec.sim
  refine congrArg (· ⊔ (0 : EReal)) ?_
  refine Eq.trans ?_ (sup_blocks fun i : Fin 16384 =>
    Cert.LossSpec.hinge (x2 (ix2 p (0 : Fin 1))) (x3 (ix2 (0 : Fin 1) i)) (x4 (ix2 p (0 : Fin 1))) (∑ q : Fin 256, x0 (ix2 p q) * x1 (ix2 i q)))
  refine Finset.sup_congr rfl fun k _ => Finset.sup_congr rfl fun j _ => ?_
  exact congrArg₂ (fun t s => Cert.LossSpec.hinge (x2 (ix2 p (0 : Fin 1))) t (x4 (ix2 p (0 : Fin 1))) s) (lab_apply x3 k j)
    (Finset.sum_congr rfl fun q _ => congrArg (x0 (ix2 p q) * ·) (blk_apply x1 k j q))

end Cert.KernelIdeal.TileValue

end
-- ==== Proof.EntryValues.lean ====
/-
  The values the program holds when the row-tiled kernel is entered, and its result read off the kernel's output. The
  host operations before the call compute the normalised embeddings, the labels as a column and as a row, and the
  thresholds as a column; each is the corresponding stage of the reference: the embeddings by the same operations term
  for term; the two label arrays are reshapes of the label vector, so entry (r, 0) of the column and entry (0, j) of
  the row are labels r and j; the threshold column is the reshape of max(gathered, 0.1) - 0.1 computed on vectors,
  where the reference broadcasts to a column first and subtracts there — equal entry by entry. After the call the
  program sums the kernel's output vector and divides by the number of rows.
-/
import proofs.«163947_j46145128629049_2_alg».proof.Proof.IdealFrame
import proofs.«163947_j46145128629049_2_alg».proof.Proof.Gen.ReferenceIdeal.Read

set_option maxRecDepth 16384

noncomputable section

namespace Cert.KernelIdeal.Entry

open Idealize.ShloMosaic Idealize.ShloMosaic.TcCoe Idealize.ShloMosaic.Tactic
open Idealize.SL Idealize.SL.Sem Idealize.ShloMosaic.StableHlo
open Cert.KernelIdeal Cert.KernelIdeal.Gen Cert.KernelIdeal.Point Idealize.ShloMosaic.ValueIdx

variable (m : (ℓ : Loc nD τ sig) → Buf (Elt Ideal) ℓ) (c : Dev nD)

/-- The normalised embeddings at the kernel's entry are the reference's: x / max(sqrt(sum of squares), 1e-12) row by
    row, composed of the same operations in the same order. -/
theorem entry_emb : (V m c main_v4 : S16384x256.Idx → Elt Ideal .f32)
    = Cert.ReferenceIdeal.Read.val_main_v4 (F := Ideal) (m ((c.tc : Thread nD τ).loc main_arg0)) := by
  unfold V W0 before
  simp only [hostOps0, hostOps0_1, List.flatten_cons, List.flatten_nil, List.append_nil, List.cons_append, List.nil_append]
  after_results
  rfl

/-- The label column is the label vector reshaped to one column: entry (r, 0) is label r (position r·1 + 0 = r). -/
theorem entry_lab_col (r : Fin 16384) : V m c main_v25 (ix2 r (0 : Fin 1)) = m ((c.tc : Thread nD τ).loc main_arg2) (ix1 r) := by
  have h : (V m c main_v25 : S16384x1.Idx → Elt Ideal .i32)
      = shapeCast S16384x1 (m ((c.tc : Thread nD τ).loc main_arg2)) shapeCasts_S16384_S16384x1 := by
    unfold V W0 before
    simp only [hostOps0, hostOps0_1, List.flatten_cons, List.flatten_nil, List.append_nil, List.cons_append, List.nil_append]
    after_results
    rfl
  refine (congrFun h (ix2 r (0 : Fin 1))).trans ?_
  exact shapeCast_apply _ shapeCasts_S16384_S16384x1 (ix2 r (0 : Fin 1)) (ix1 r) (by
    rw [Shape.rowMajor_val_two, Shape.rowMajor_val_one]; show r.val = r.val * 1 + 0; omega)

/-- The label row is the label vector reshaped to one row: entry (0, j) is label j (position 0·16384 + j = j). -/
theorem entry_lab_row (j : Fin 16384) : V m c main_v26 (ix2 (0 : Fin 1) j) = m ((c.tc : Thread nD τ).loc main_arg2) (ix1 j) := by
  have h : (V m c main_v26 : S1x16384.Idx → Elt Ideal .i32)
      = shapeCast S1x16384 (m ((c.tc : Thread nD τ).loc main_arg2)) shapeCasts_S16384_S1x16384 := by
    unfold V W0 before
    simp only [hostOps0, hostOps0_1, List.flatten_cons, List.flatten_nil, List.append_nil, List.cons_append, List.nil_append]
    after_results
    rfl
  refine (congrFun h (ix2 (0 : Fin 1) j)).trans ?_
  exact shapeCast_apply _ shapeCasts_S16384_S1x16384 (ix2 (0 : Fin 1) j) (ix1 j) (by
    rw [Shape.rowMajor_val_two, Shape.rowMajor_val_one]; show j.val = 0 * 16384 + j.val; omega)

set_option maxHeartbeats 1000000 in
/-- The threshold column at (r, 0) is the reference's threshold stage there: both are max(g r, 0.1) - 0.1 for the same
    gathered value g r (the gather reads the same index pairs (row, label), each wrapped once if negative, on both
    sides); one side subtracts on the vector and reshapes to a column, the other broadcasts to a column and subtracts. -/
theorem entry_thr (r : Fin 16384) : V m c main_v24 (ix2 r (0 : Fin 1))
    = Cert.ReferenceIdeal.Read.val_main_v31 (F := Ideal) (m ((c.tc : Thread nD τ).loc main_arg1)) (m ((c.tc : Thread nD τ).loc main_arg2)) (ix2 r (0 : Fin 1)) := by
  have h : (V m c main_v24 : S16384x1.Idx → Elt Ideal .f32)
      = shapeCast S16384x1 (subf (F := Ideal) (s := S16384) (φ := .f32) (maximumf (F := Ideal) (s := S16384) (φ := .f32)
            (Cert.ReferenceIdeal.Read.val_main_v26 (F := Ideal) (m ((c.tc : Thread nD τ).loc main_arg1)) (m ((c.tc : Thread nD τ).loc main_arg2)))
            (Cert.ReferenceIdeal.Read.val_main_v27 (F := Ideal))) (Cert.ReferenceIdeal.Read.val_main_v27 (F := Ideal))) shapeCasts_S16384_S16384x1 := by
    unfold V W0 before
    simp only [hostOps0, hostOps0_1, List.flatten_cons, List.flatten_nil, List.append_nil, List.cons_append, List.nil_append]
    after_results_simp
    -- the two operands of the concatenation (the row numbers and the labels, each as a column)
    repeat (first
      | rw [nullary_result] | rw [unary_result] | rw [binary_result] | rw [ternary_result]
      | (rw [nullary_result_ne]; rotate_left; decide)
      | (rw [unary_result_ne]; rotate_left; decide)
      | (rw [binary_result_ne]; rotate_left; decide)
      | (rw [ternary_result_ne]; rotate_left; decide))
    rfl
  refine (congrFun h (ix2 r (0 : Fin 1))).trans ?_
  rw [shapeCast_apply _ shapeCasts_S16384_S16384x1 (ix2 r (0 : Fin 1)) (ix1 r) (by
    rw [Shape.rowMajor_val_two, Shape.rowMajor_val_one]; show r.val = r.val * 1 + 0; omega)]
  have e29 : Cert.ReferenceIdeal.Read.idx_main_v29 (ix2 r (0 : Fin 1)) = ix1 r := by
    funext a; match a with | ⟨0, _⟩ => rfl
  have e27 : Cert.ReferenceIdeal.Read.val_main_v27 (F := Ideal) (ix1 r) = FloatOps.ofBits (F := Ideal) .f32 0x3DCCCCCD#32 := by
    rw [Cert.ReferenceIdeal.Read.val_main_v27_apply, Cert.ReferenceIdeal.Read.val_main_cst_3_apply]
  rw [Cert.ReferenceIdeal.Read.val_main_v31_apply, Cert.ReferenceIdeal.Read.val_main_v29_apply, Cert.ReferenceIdeal.Read.val_main_v30_apply,
    Cert.ReferenceIdeal.Read.val_main_v28_apply, Cert.ReferenceIdeal.Read.val_main_cst_4_apply, e29]
  show FloatOps.subf (F := Ideal) (φ := .f32) (FloatOps.maximumf (F := Ideal) (φ := .f32) (Cert.ReferenceIdeal.Read.val_main_v26 (F := Ideal) (m ((c.tc : Thread nD τ).loc main_arg1)) (m ((c.tc : Thread nD τ).loc main_arg2)) (ix1 r))
      (Cert.ReferenceIdeal.Read.val_main_v27 (F := Ideal) (ix1 r))) (Cert.ReferenceIdeal.Read.val_main_v27 (F := Ideal) (ix1 r)) = _
  rw [e27]

/-- The program's result is the sum of the kernel's output vector divided by 16384. -/
theorem result_eq : (Vend m c main_v29 : FVec Ideal S_ .f32)
    = Host.divf (Host.reduceAdd (F := Ideal) (s := S16384) (φ := .f32) ((dats m 0 c).arrAt 5 cfg0.N) (constant (F := Ideal) S_ .f32 0x00000000#32) reducesTo_S16384_S_d0 h_S_)
        (constant (F := Ideal) S_ .f32 0x46800000#32) := by
  have hx : Wx m c (Proc.devRef .tc main_v27) = (dats m 0 c).arrAt 5 cfg0.N := by
    show Function.update (W0 m c) (Proc.devRef .tc main_v27) ((dats m 0 c).arrAt 5 cfg0.N) (Proc.devRef .tc main_v27) = _
    rw [Function.update_self]
  unfold Vend Wend afterOps
  simp only [hostOps1, List.flatten_cons, List.flatten_nil, List.append_nil]
  after_results
  rw [hx]

end Cert.KernelIdeal.Entry

end
-- ==== Proof.Algebraic.lean ====
/-
  The two programs compute the same number. The kernel program's result is the mean of the result array the pipeline
  left, and that array is the vector of floored row losses of the arrays the region finds: the normalised embeddings,
  the labels as a column and as a row, the thresholds. The reference's result is the mean of its row losses over its own
  stages. The embeddings are the same term of the features on both sides; the labels and thresholds agree entry by
  entry; and the floor is idle, since every row's own entry contributes zero. So the two means are one term.
-/
import proofs.«163947_j46145128629049_2_alg».proof.Defs
import proofs.«163947_j46145128629049_2_alg».proof.Proof.IdealValue
import proofs.«163947_j46145128629049_2_alg».proof.Proof.RefRows
import proofs.«163947_j46145128629049_2_alg».proof.Proof.TileValue
import proofs.«163947_j46145128629049_2_alg».proof.Proof.EntryValues
import proofs.«163947_j46145128629049_2_alg».proof.Proof.Gen.ReferenceIdeal.Run
import proofs.«163947_j46145128629049_2_alg».proof.Proof.Gen.ReferenceIdeal.Read
import proofs.«163947_j46145128629049_2_alg».proof.Proof.Gen.Pre_finite_inputs

set_option maxRecDepth 16384

noncomputable section

namespace Cert.KernelIdeal.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal Cert.KernelIdeal.Gen
open Idealize.ShloMosaic.ValueIdx Cert.LossSpec

local notation "𝕄" => MT nD τ sig Unit (Elt Ideal) ℕ (UR sig nD τ) ℕ

variable (m : (ℓ : Loc nD τ sig) → Buf (Elt Ideal) ℓ) (ρ : Dev nD → PrngReg)

/-- What a tile computes at a row: the floored loss of that row against the whole matrix. -/
theorem tile : TileEq := fun x0 x1 x2 x3 x4 p => Cert.KernelIdeal.TileValue.tile_eq x0 x1 x2 x3 x4 p

/-- Over any arrays: when the label column and the label row are both the labels `T` and the threshold column is `θ`, the
    floored loss of row `r` is its loss — for a row of the matrix itself the floor is idle. -/
theorem lossVec_row (A4 : S16384x256.Idx → EReal) (A25 : S16384x1.Idx → BitVec 32) (A26 : S1x16384.Idx → BitVec 32) (A24 : S16384x1.Idx → EReal)
    (T : Fin 16384 → BitVec 32) (θ : Fin 16384 → EReal)
    (h25 : ∀ r : Fin 16384, A25 (ix2 r (0 : Fin 1)) = T r) (h26 : ∀ j : Fin 16384, A26 (ix2 (0 : Fin 1) j) = T j)
    (h24 : ∀ r : Fin 16384, A24 (ix2 r (0 : Fin 1)) = θ r) (r : Fin 16384) :
    lossVec A4 A25 A26 A24 (ix1 r) = rowLoss (fun r k => A4 (ix2 r k)) T θ r := by
  show tileLoss (fun k => A4 (ix2 r k)) (A25 (ix2 r (0 : Fin 1))) (A24 (ix2 r (0 : Fin 1))) (fun j k => A4 (ix2 j k)) (fun j => A26 (ix2 (0 : Fin 1) j)) = _
  rw [h25 r, h24 r, funext h26]
  exact tileLoss_self (fun r k => A4 (ix2 r k)) T θ r

/-- The same as an equation of vectors. -/
theorem lossVec_rows (A4 : S16384x256.Idx → EReal) (A25 : S16384x1.Idx → BitVec 32) (A26 : S1x16384.Idx → BitVec 32) (A24 : S16384x1.Idx → EReal)
    (T : Fin 16384 → BitVec 32) (θ : Fin 16384 → EReal)
    (h25 : ∀ r : Fin 16384, A25 (ix2 r (0 : Fin 1)) = T r) (h26 : ∀ j : Fin 16384, A26 (ix2 (0 : Fin 1) j) = T j)
    (h24 : ∀ r : Fin 16384, A24 (ix2 r (0 : Fin 1)) = θ r) :
    lossVec A4 A25 A26 A24 = fun i => rowLoss (fun r k => A4 (ix2 r k)) T θ (i 0) := by
  funext i
  obtain ⟨r, rfl⟩ : ∃ r : Fin 16384, i = ix1 r := ⟨i 0, eq_ix1 i⟩
  exact lossVec_row A4 A25 A26 A24 T θ h25 h26 h24 r

set_option maxHeartbeats 400000 in
/-- The kernel program's result is the reference's: the mean of the same vector of row losses. -/
theorem result_ref  (c : Dev nD) :
    (Vend m c main_v29 : FVec Ideal S_ .f32) = Cert.ReferenceIdeal.Read.val_main_v41 (F := Ideal) (m ((c.tc : Thread nD τ).loc main_arg0))
      (m ((c.tc : Thread nD τ).loc main_arg1)) (m ((c.tc : Thread nD τ).loc main_arg2)) := by
  rw [Cert.KernelIdeal.Entry.result_eq m c, final m tile c,
    lossVec_rows (V m c main_v4) (V m c main_v25) (V m c main_v26) (V m c main_v24)
      (fun r => m ((c.tc : Thread nD τ).loc main_arg2) (ix1 r))
      (fun r => Cert.ReferenceIdeal.Read.val_main_v31 (F := Ideal) (m ((c.tc : Thread nD τ).loc main_arg1)) (m ((c.tc : Thread nD τ).loc main_arg2)) (ix2 r (0 : Fin 1)))
      (Cert.KernelIdeal.Entry.entry_lab_col m c) (Cert.KernelIdeal.Entry.entry_lab_row m c) (Cert.KernelIdeal.Entry.entry_thr m c),
    Cert.KernelIdeal.Entry.entry_emb m c]
  unfold Cert.ReferenceIdeal.Read.val_main_v41 Cert.ReferenceIdeal.Read.val_main_v40
  rw [Cert.ReferenceIdeal.RefValue.rows_eq]
  rfl

end Cert.KernelIdeal.Point

namespace Cert.Proof

open Idealize.ShloMosaic Idealize.SL.Sem Cert.KernelIdeal Cert.KernelIdeal.Gen Cert.KernelIdeal.Point Idealize.ShloMosaic.ValueIdx

/-- At the ideal instance the kernel program and the reference, run from memories that agree on the arguments, end with
    the same result and their arguments unchanged. -/
theorem algebraic  : @Cert.algebraic_KernelIdeal_ReferenceIdeal Cert.KernelIdeal.Gen.facts Cert.ReferenceIdeal.Gen.facts Cert.Pre_finite_inputs.Gen.facts := by
  intro m ρ m' ρ' _ hagree
  refine ⟨fun c => Vend m c main_v29, ?_, ?_⟩
  · exact (θ_run Cert.KernelIdeal.defs _ _).mono (fun _ h c => ⟨(h c).2 main_v29 v29_rest, ((h c).2 main_arg0 arg0_rest).trans (Vend_arg0 m c),
      ((h c).2 main_arg1 arg1_rest).trans (Vend_arg1 m c), ((h c).2 main_arg2 arg2_rest).trans (Vend_arg2 m c)⟩) (run_main (F := Ideal) m ρ)
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v41_eq, (hagree c).1, (hagree c).2.1, (hagree c).2.2]
    exact (result_ref m  c).symm

end Cert.Proof

end
-- ==== Proof.lean ====
/-
  The certificate of the row-tiled loss kernel against its reference: for unit rows e_i (the features divided by their
  norms, floored at 1e-12), labels t_i and thresholds θ_i = max(cos_theta[i, t_i], 0.1) - 0.1, the loss of row i is the
  largest of  (t_i ≠ t_j and e_i·e_j > θ_i) ? e_i·e_j - θ_i : 0  over all j, and the result is the mean of the 16384 row
  losses. The kernel computes each row's loss tile by tile — 512 rows at a grid point, the columns in sixteen blocks of
  1024, a running maximum that starts at zero — and the reference as one maximum over all columns from minus infinity;
  they agree because the diagonal entry contributes zero, so no row's loss is negative. The frames: each program runs to
  the end and leaves its arguments unchanged (for the kernel: the run of Proof/IdealRun.lean and Proof/WordRun.lean, in
  which the embedding matrix, handed to the kernel through two windows, is read at half the full share by each).
-/
import proofs.«163947_j46145128629049_2_alg».proof.Defs
import proofs.«163947_j46145128629049_2_alg».proof.Proof.Gen.Kernel
import proofs.«163947_j46145128629049_2_alg».proof.Proof.Gen.KernelIdeal
import proofs.«163947_j46145128629049_2_alg».proof.Proof.Gen.ReferenceIdeal
import proofs.«163947_j46145128629049_2_alg».proof.Proof.Gen.ReferenceIdeal.Run
import proofs.«163947_j46145128629049_2_alg».proof.Proof.Gen.ReferenceIdeal.Read
import proofs.«163947_j46145128629049_2_alg».proof.Proof.Gen.Pre_finite_inputs
import proofs.«163947_j46145128629049_2_alg».proof.Proof.WordFrame
import proofs.«163947_j46145128629049_2_alg».proof.Proof.IdealFrame
import proofs.«163947_j46145128629049_2_alg».proof.Proof.Algebraic
import Idealize.ShloMosaic.Adequacy
import Idealize.ShloMosaic.Init

noncomputable section

namespace Cert.Proof

open Idealize.ShloMosaic Idealize.SL.Sem

/-- The word-level kernel runs to the end and leaves its arguments unchanged. -/
theorem frame_p : @Cert.frame_Kernel Cert.Kernel.Gen.facts Cert.Pre_finite_inputs.Gen.facts :=
  fun m ρ _ => Cert.Kernel.Point.frame m ρ

/-- So does the idealized kernel. -/
theorem frame_pi : @Cert.frame_KernelIdeal Cert.KernelIdeal.Gen.facts Cert.Pre_finite_inputs.Gen.facts :=
  fun m ρ _ => Cert.KernelIdeal.Point.frame m ρ

/-- And the reference: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_p, frame_pi, frame_ri, trivial, Cert.Proof.algebraic⟩

end Cert.Proof

end
